-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x64 .f32) (main_arg1 : IVec S2x1000000 32) (main_arg2 : FVec F S64x64 .f32) (main_arg3 : FVec F S64 .f32) (main_arg4 : FVec F S64x32 .f32) (main_arg5 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S5000x64 : Shape := ⟨2, ![5000, 64]⟩
abbrev S5000x1 : Shape := ⟨2, ![5000, 1]⟩
abbrev S1000000x64 : Shape := ⟨2, ![1000000, 64]⟩
abbrev S1x64 : Shape := ⟨2, ![1, 64]⟩
abbrev S100000x32 : Shape := ⟨2, ![100000, 32]⟩
abbrev S5000x32 : Shape := ⟨2, ![5000, 32]⟩
abbrev S1000000x32 : Shape := ⟨2, ![1000000, 32]⟩
abbrev S1x32 : Shape := ⟨2, ![1, 32]⟩

abbrev nBuf : Space → Nat
  | .hbm => 67
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S_, .i32⟩
  | .hbm, ⟨35, _⟩ => ⟨S1000000, .i32⟩
  | .hbm, ⟨36, _⟩ => ⟨S1000000, .i1⟩
  | .hbm, ⟨37, _⟩ => ⟨S_, .i32⟩
  | .hbm, ⟨38, _⟩ => ⟨S1000000, .i32⟩
  | .hbm, ⟨39, _⟩ => ⟨S1000000, .i32⟩
  | .hbm, ⟨40, _⟩ => ⟨S1000000, .i32⟩
  | .hbm, ⟨41, _⟩ => ⟨S1000000x1, .i32⟩
  | .hbm, ⟨42, _⟩ => ⟨S1000000x64, .f32⟩
  | .hbm, ⟨43, _⟩ => ⟨S_, .f32⟩
  | .hbm, ⟨44, _⟩ => ⟨S100000x64, .f32⟩
  | .hbm, ⟨45, _⟩ => ⟨S1000000x1, .i32⟩
  | .hbm, ⟨46, _⟩ => ⟨S100000x64, .f32⟩
  | .hbm, ⟨47, _⟩ => ⟨S100000x1, .f32⟩
  | .hbm, ⟨48, _⟩ => ⟨S100000x1, .f32⟩
  | .hbm, ⟨49, _⟩ => ⟨S1x64, .f32⟩
  | .hbm, ⟨50, _⟩ => ⟨S100000x32, .f32⟩
  | .hbm, ⟨51, _⟩ => ⟨S_, .i32⟩
  | .hbm, ⟨52, _⟩ => ⟨S1000000, .i32⟩
  | .hbm, ⟨53, _⟩ => ⟨S1000000, .i1⟩
  | .hbm, ⟨54, _⟩ => ⟨S_, .i32⟩
  | .hbm, ⟨55, _⟩ => ⟨S1000000, .i32⟩
  | .hbm, ⟨56, _⟩ => ⟨S1000000, .i32⟩
  | .hbm, ⟨57, _⟩ => ⟨S1000000, .i32⟩
  | .hbm, ⟨58, _⟩ => ⟨S1000000x1, .i32⟩
  | .hbm, ⟨59, _⟩ => ⟨S1000000x32, .f32⟩
  | .hbm, ⟨60, _⟩ => ⟨S_, .f32⟩
  | .hbm, ⟨61, _⟩ => ⟨S100000x32, .f32⟩
  | .hbm, ⟨62, _⟩ => ⟨S1000000x1, .i32⟩
  | .hbm, ⟨63, _⟩ => ⟨S100000x32, .f32⟩
  | .hbm, ⟨64, _⟩ => ⟨S100000x1, .f32⟩
  | .hbm, ⟨65, _⟩ => ⟨S1x32, .f32⟩
  | .hbm, ⟨66, _⟩ => ⟨S100000x32, .f32⟩
  | .local _ .vmem, ⟨0, _⟩ => ⟨S5000x64, .f32⟩
  | .local _ .vmem, ⟨1, _⟩ => ⟨S5000x64, .f32⟩
  | .local _ .vmem, ⟨2, _⟩ => ⟨S5000x1, .f32⟩
  | .local _ .vmem, ⟨3, _⟩ => ⟨S5000x1, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x1, .f32⟩
  | .local _ .vmem, ⟨11, _⟩ => ⟨S5000x1, .f32⟩
  | .local _ .vmem, ⟨12, _⟩ => ⟨S64x64, .f32⟩
  | .local _ .vmem, ⟨13, _⟩ => ⟨S1x64, .f32⟩
  | .local _ .vmem, ⟨14, _⟩ => ⟨S64x32, .f32⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S1x32, .f32⟩
  | .local _ .vmem, ⟨22, _⟩ => ⟨S5000x32, .f32⟩
  | .local _ .vmem, ⟨23, _⟩ => ⟨S5000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c : Ref sig .tc := ⟨.hbm, 34, rfl⟩
abbrev main_v21 : Ref sig .tc := ⟨.hbm, 35, rfl⟩
abbrev main_v22 : Ref sig .tc := ⟨.hbm, 36, rfl⟩
abbrev main_c_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_8 : Ref sig .tc := ⟨.hbm, 51, rfl⟩
abbrev main_v35 : Ref sig .tc := ⟨.hbm, 52, rfl⟩
abbrev main_v36 : Ref sig .tc := ⟨.hbm, 53, rfl⟩
abbrev main_c_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_10 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S5000x64_S5000x64_0_0 : ∀ a, (![0, 0] : Fin 2 → Nat) a + S5000x64.size a ≤ S5000x64.size a
  h_S5000x64 : 0 < S5000x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S32_S1x32 : S32.ShapeCasts S1x32
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  gather_S100000x32_S1000000x1_S1000000x32_1_0_n_n_0_1_132_wf : GatherDims.WF S100000x32 S1000000x1 S1000000x32 [1] [0] [] [0] [] 1 ![1, 32]
  scatter_S100000x32_S1000000x1_S1000000x32_1_0_0_1_wf : ScatterDims.WF S100000x32 S1000000x1 S1000000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x32.size a ≤ S100000x32.size a
  hwx1_6 : ∀ i : grid1.Coords, EltTy.bits .f32 = 32 ∨ (Rect.block (s := S100000x32) S5000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S1000000x1_S1000000x32_1_0_n_n_0_1_132 : GatherDims S100000x32 S1000000x1 S1000000x32 where
  offsetDims := [1]
  collapsedSliceDims := [0]
  operandBatchingDims := []
  startIndicesBatchingDims := []
  startIndexMap := [0]
  indexVectorDim := 1
  sliceSizes := ![1, 32]
  wf := gather_S100000x32_S1000000x1_S1000000x32_1_0_n_n_0_1_132_wf
def scatter_S100000x32_S1000000x1_S1000000x32_1_0_0_1 : ScatterDims S100000x32 S1000000x1 S1000000x32 where
  updateWindowDims := [1]
  insertedWindowDims := [0]
  scatterDimsToOperandDims := [0]
  indexVectorDim := 1
  wf := scatter_S100000x32_S1000000x1_S1000000x32_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v30) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S5000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v44) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v45) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1000000 : Shape := ⟨2, ![2, 1000000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩
abbrev S1x64 : Shape := ⟨2, ![1, 64]⟩
abbrev S100000x32 : Shape := ⟨2, ![100000, 32]⟩
abbrev S1x32 : Shape := ⟨2, ![1, 32]⟩

abbrev nBuf : Space → Nat
  | .hbm => 84
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1000000, .i32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S1x1000000, .i32⟩
  | .hbm, ⟨7, _⟩ => ⟨S1000000, .i32⟩
  | .hbm, ⟨8, _⟩ => ⟨S1x1000000, .i32⟩
  | .hbm, ⟨9, _⟩ => ⟨S1000000, .i32⟩
  | .hbm, ⟨10, _⟩ => ⟨S_, .f32⟩
  | .hbm, ⟨11, _⟩ => ⟨S1000000, .f32⟩
  | .hbm, ⟨12, _⟩ => ⟨S_, .f32⟩
  | .hbm, ⟨13, _⟩ => ⟨S100000, .f32⟩
  | .hbm, ⟨14, _⟩ => ⟨S1000000x1, .i32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1000000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S100000x64, .f32⟩
  | .hbm, ⟨34, _⟩ => ⟨S100000x64, .f32⟩
  | .hbm, ⟨35, _⟩ => ⟨S_, .i32⟩
  | .hbm, ⟨36, _⟩ => ⟨S1000000, .i32⟩
  | .hbm, ⟨37, _⟩ => ⟨S1000000, .i1⟩
  | .hbm, ⟨38, _⟩ => ⟨S_, .i32⟩
  | .hbm, ⟨39, _⟩ => ⟨S1000000, .i32⟩
  | .hbm, ⟨40, _⟩ => ⟨S1000000, .i32⟩
  | .hbm, ⟨41, _⟩ => ⟨S1000000, .i32⟩
  | .hbm, ⟨42, _⟩ => ⟨S1000000x1, .i32⟩
  | .hbm, ⟨43, _⟩ => ⟨S1000000x64, .f32⟩
  | .hbm, ⟨44, _⟩ => ⟨S_, .f32⟩
  | .hbm, ⟨45, _⟩ => ⟨S100000x64, .f32⟩
  | .hbm, ⟨46, _⟩ => ⟨S1000000x1, .i32⟩
  | .hbm, ⟨47, _⟩ => ⟨S100000x64, .f32⟩
  | .hbm, ⟨48, _⟩ => ⟨S100000x1, .f32⟩
  | .hbm, ⟨49, _⟩ => ⟨S100000x64, .f32⟩
  | .hbm, ⟨50, _⟩ => ⟨S100000x64, .f32⟩
  | .hbm, ⟨51, _⟩ => ⟨S100000x64, .f32⟩
  | .hbm, ⟨52, _⟩ => ⟨S1x64, .f32⟩
  | .hbm, ⟨53, _⟩ => ⟨S100000x64, .f32⟩
  | .hbm, ⟨54, _⟩ => ⟨S100000x64, .f32⟩
  | .hbm, ⟨55, _⟩ => ⟨S_, .f32⟩
  | .hbm, ⟨56, _⟩ => ⟨S100000x64, .f32⟩
  | .hbm, ⟨57, _⟩ => ⟨S100000x64, .f32⟩
  | .hbm, ⟨58, _⟩ => ⟨S100000x1, .f32⟩
  | .hbm, ⟨59, _⟩ => ⟨S100000x64, .f32⟩
  | .hbm, ⟨60, _⟩ => ⟨S100000x64, .f32⟩
  | .hbm, ⟨61, _⟩ => ⟨S_, .i32⟩
  | .hbm, ⟨62, _⟩ => ⟨S1000000, .i32⟩
  | .hbm, ⟨63, _⟩ => ⟨S1000000, .i1⟩
  | .hbm, ⟨64, _⟩ => ⟨S_, .i32⟩
  | .hbm, ⟨65, _⟩ => ⟨S1000000, .i32⟩
  | .hbm, ⟨66, _⟩ => ⟨S1000000, .i32⟩
  | .hbm, ⟨67, _⟩ => ⟨S1000000, .i32⟩
  | .hbm, ⟨68, _⟩ => ⟨S1000000x1, .i32⟩
  | .hbm, ⟨69, _⟩ => ⟨S1000000x64, .f32⟩
  | .hbm, ⟨70, _⟩ => ⟨S_, .f32⟩
  | .hbm, ⟨71, _⟩ => ⟨S100000x64, .f32⟩
  | .hbm, ⟨72, _⟩ => ⟨S1000000x1, .i32⟩
  | .hbm, ⟨73, _⟩ => ⟨S100000x64, .f32⟩
  | .hbm, ⟨74, _⟩ => ⟨S100000x1, .f32⟩
  | .hbm, ⟨75, _⟩ => ⟨S100000x64, .f32⟩
  | .hbm, ⟨76, _⟩ => ⟨S100000x64, .f32⟩
  | .hbm, ⟨77, _⟩ => ⟨S100000x32, .f32⟩
  | .hbm, ⟨78, _⟩ => ⟨S1x32, .f32⟩
  | .hbm, ⟨79, _⟩ => ⟨S100000x32, .f32⟩
  | .hbm, ⟨80, _⟩ => ⟨S100000x32, .f32⟩
  | .hbm, ⟨81, _⟩ => ⟨S_, .f32⟩
  | .hbm, ⟨82, _⟩ => ⟨S100000x32, .f32⟩
  | .hbm, ⟨83, _⟩ => ⟨S100000x32, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_c_8 : Ref sig .tc := ⟨.hbm, 61, rfl⟩
abbrev main_v43 : Ref sig .tc := ⟨.hbm, 62, rfl⟩
abbrev main_v44 : Ref sig .tc := ⟨.hbm, 63, rfl⟩
abbrev main_c_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_call1_cst : Ref sig .tc := ⟨.hbm, 81, rfl⟩
abbrev main_call1_v0 : Ref sig .tc := ⟨.hbm, 82, rfl⟩
abbrev main_v60 : Ref sig .tc := ⟨.hbm, 83, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KernelRun.lean ====
/-
  The idealized kernel's run, with every buffer it leaves named.

  The program is three kernel regions among stretches of host operations. Its run from the launch memory terminates
  without a fault, and every buffer that outlives the regions ends holding the contents the last boundary names: the
  launch memory pushed through the first stretch of host operations, the first region's write-backs, the second
  stretch, and so on to the last region's write-backs. In particular the result buffer ends at the last region's
  output array, and each argument buffer as it was launched.
-/
import proofs.«121131_j79285096284697_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program from `m` terminates, nothing faulting, with every buffer that outlives the
    regions at the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The same run with the result array and the six argument arrays named. -/
theorem run_result : θ_run defs (onTc (τ := τ) (main (F := F))) ⟨m, fun _ => 0, ρ⟩ (fun r => ∀ c : Dev nD,
      r.2.mem ((c.tc : Thread nD τ).loc main_v47) = W6 m ρ c (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v47 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)
    (run_buffers m ρ)

end Cert.KernelIdeal.Whole

end
-- ==== Proof.LibLayout.lean ====
/-
  Three small readings of layout operations at an index given by coordinates, for the column forms a row reduction
  with kept dimensions produces: a vector of `a` entries cast to one column `[a, 1]`, a column broadcast along
  the rows `[a, 1] → [a, b]`, and the index a row sum inserts on the reduced axis.
-/
import Idealize.ShloMosaic.Lib.ValueLayout
import Idealize.ShloMosaic.PureOps.Ideal.Laws

namespace Cert.Attn.Layout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the rows inserts: row `p` with column `k` put back is `(p, k)`. -/
theorem lift_row {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- A sum along the rows of an `[a, b]` array of extended reals, read at row `p`: the sum of the row's entries. -/
theorem rowSum_apply {a b : ℕ} (src : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] (⟨1, ![a]⟩ : Shape) src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_row h p k)

end Cert.Attn.Layout
-- ==== Proof.Region0.lean ====
/-
  The first region: every row of the node features scaled by the row's entry of a column.

  The region walks the 100000 rows in 20 blocks of 5000. At each block it multiplies the block of features, entry by entry,
  by the block of the column broadcast along the 64 features, and writes the product back as the same block of the output.
  So the output array ends, entry `(n, k)`, at `X (n, k) · C (n, 0)`.
-/
import proofs.«121131_j79285096284697_2_alg».proof.Proof.Gen.KernelIdeal.Frame
import proofs.«121131_j79285096284697_2_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Scale

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Every row of `X` times the row's entry of the column `C`. -/
def scaleRows (X : S100000x64.Idx → EReal) (C : S100000x1.Idx → EReal) : S100000x64.Idx → EReal :=
  fun i => X i * C (ix2 (⟨(i 0).val, (i 0).isLt⟩ : Fin 100000) (0 : Fin 1))

/-- The body's product at an entry of a block: the feature times the column's entry of the same row. -/
theorem pay_at (x0 : Vec Ideal S5000x64 .f32) (x1 : Vec Ideal S5000x1 .f32) (p : Fin 5000) (q : Fin 64) :
    k0_pay1 x0 x1 (ix2 p q) = x0 (ix2 p q) * x1 (ix2 p (0 : Fin 1)) := by
  unfold k0_pay1
  rw [mulf_apply, shapeCast_self, Cert.Attn.Layout.broadcastTo_a1_ab_apply]

/-- The body's product at an entry is the scaled array's entry, once the two blocks are read where the entry sits. -/
theorem point_eq (X : S100000x64.Idx → EReal) (C : S100000x1.Idx → EReal)
    (x0 : Vec Ideal S5000x64 .f32) (x1 : Vec Ideal S5000x1 .f32) (y : S5000x64.Idx) (i : S100000x64.Idx)
    (h0 : x0 y = X i)
    (h1 : ∀ u : S5000x1.Idx, (u 0).val = (y 0).val →
      x1 u = C (ix2 (⟨(i 0).val, (i 0).isLt⟩ : Fin 100000) (0 : Fin 1))) :
    k0_pay1 x0 x1 y = scaleRows X C i := by
  obtain ⟨p, q, rfl⟩ : ∃ (p : Fin 5000) (q : Fin 64), y = ix2 p q := ⟨y 0, y 1, eq_ix2 y⟩
  rw [pay_at, h0, h1 (ix2 p (0 : Fin 1)) rfl]
  rfl

/-- Where the three windows' blocks sit at point `t`: block row `t`, block column 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the scaled array. -/
theorem flushed_eq (c : Dev nD) (t : Fin cfg0.N) :
    (dat0 V c).flushed 2 t
      = ((cfg0.win 2).blk t).view.read (Elt Ideal) (scaleRows (V c main_arg0) (V c main_v19)) := by
  show (cfg0.win 2).cut (grid0.coords t) ((dat0 V c).after 2 t) = _
  rw [after0_2]
  unfold out0_2
  rw [View.canon_unit_zero hz]
  simp only [View.ld_unit_zero (S := S5000x64) hz, View.ld_unit_zero (S := S5000x1) hz]
  obtain ⟨e0, e1, e2, e3, e4, e5⟩ := idx_facts t
  funext j
  refine point_eq (V c main_arg0) (V c main_v19) (iblk0 V c 0 t) (iblk0 V c 1 t) j (((cfg0.win 2).blk t).view.emb j) ?_ ?_
  · show V c main_arg0 (((cfg0.win 0).blk t).view.emb j) = V c main_arg0 (((cfg0.win 2).blk t).view.emb j)
    refine congrArg (V c main_arg0) ?_
    funext a; apply Fin.ext
    match a with
    | ⟨0, _⟩ =>
      show win0_0.index t (0 : Fin 2) * 5000 + 1 * (j 0).val = win0_2.index t (0 : Fin 2) * 5000 + 1 * (j 0).val
      omega
    | ⟨1, _⟩ =>
      show win0_0.index t (1 : Fin 2) * 64 + 1 * (j 1).val = win0_2.index t (1 : Fin 2) * 64 + 1 * (j 1).val
      omega
  · intro u hu
    show V c main_v19 (((cfg0.win 1).blk t).view.emb u) = _
    refine congrArg (V c main_v19) ?_
    funext a; apply Fin.ext
    match a with
    | ⟨0, _⟩ =>
      show win0_1.index t (0 : Fin 2) * 5000 + 1 * (u 0).val = win0_2.index t (0 : Fin 2) * 5000 + 1 * (j 0).val
      omega
    | ⟨1, _⟩ =>
      show win0_1.index t (1 : Fin 2) * 1 + 1 * (u 1).val = 0
      have hu1 : (u 1).val < 1 := (u 1).isLt
      omega

/-- An entry of the output array is in point `t`'s block iff each coordinate is in the block's range. -/
theorem mem_blk (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v20).slice (win0_2.rect t)).set ↔ _
  rw [View.set_slice_whole, Rect.mem_set_unit]
  exact Iff.rfl

/-- Every entry of the output array is in the block of the point its row falls in. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 20 := N_0
  let t : Fin cfg0.N := ⟨(i 0).val / 5000, by show (i 0).val / 5000 < grid0.N; rw [hN]; omega⟩
  obtain ⟨e0, e1, e2, e3, e4, e5⟩ := idx_facts t
  have e4' : win0_2.index t (0 : Fin 2) = (i 0).val / 5000 := e4
  refine ⟨t, flush0_2 t, ?_⟩
  rw [mem_blk]
  intro a
  match a with
  | ⟨0, _⟩ =>
    show win0_2.index t (0 : Fin 2) * 5000 ≤ (i 0).val ∧ (i 0).val < win0_2.index t (0 : Fin 2) * 5000 + 5000
    omega
  | ⟨1, _⟩ =>
    show win0_2.index t (1 : Fin 2) * 64 ≤ (i 1).val ∧ (i 1).val < win0_2.index t (1 : Fin 2) * 64 + 64
    omega

/-- The output array after the region: the features scaled row by row. -/
theorem final (c : Dev nD) :
    (dat0 V c).arrAt 2 cfg0.N = scaleRows (V c main_arg0) (V c main_v19) :=
  (dat0 V c).arrAt_eq_of_cover 2 (scaleRows (V c main_arg0) (V c main_v19)) (fun t _ => flushed_eq V c t) cover

end Cert.KernelIdeal.Scale

end
-- ==== Proof.LibRows.lean ====
/-
  Row-wise gathers and the accumulating row scatter, read at an index given by coordinates.

  A table of rows `[M, b]` gathered at a column of positions `[n, 1]` gives `[n, b]`: entry `(j, q)` is the table's
  entry of column `q` in the row the position of `j` names, the position read as a signed integer and clamped into
  the table. The same for a vector `[M]` gathered into `[n]`. The accumulating scatter of rows `[n, b]` at a column
  of positions into a table `[M, b]` adds, to entry `(i, q)`, the entries of column `q` of every row whose position,
  read signed and NOT clamped, is `i`; a row positioned outside the table is added nowhere.
  Also here: the normalisation of possibly negative positions (a negative one counts from the end), a trailing
  padding and a leading slice of a vector, each read at a coordinate.
-/
import Idealize.ShloMosaic.Lib.ValueIdx
import Idealize.ShloMosaic.Lib.ValueLayout
import Idealize.ShloMosaic.Lib.Pipeline.Value
import Idealize.ShloMosaic.PureOps.Ideal.Laws

namespace Cert.Rows

open Idealize.ShloMosaic Idealize.ShloMosaic.ValueIdx

variable {α : Type}

/-! ## Positions -/

/-- A position that may be negative, normalised: a negative one has the extent of the axis, `lim` added. -/
def wrap (x lim : BitVec 32) : BitVec 32 := Scalar.select (IntOp.cmpi .slt x 0#32) (IntOp.addi x lim) x

/-- The row of a table of `M` rows a position names: read signed, clamped into `[0, M - 1]`. -/
def rowOf (M : ℕ) (hM : 0 < M) (x : BitVec 32) : Fin M := ⟨min x.toInt.toNat (M - 1), by omega⟩

/-- The column of normalised positions built from a vector of positions, read at row `j`. -/
theorem wrapCol_apply {n : ℕ} (a : IVec (⟨1, ![n]⟩ : Shape) 32) (lim : BitVec 32)
    (hb0 : (⟨0, ![]⟩ : Shape).BroadcastsInDim (⟨1, ![n]⟩ : Shape) ![])
    (hb1 : (⟨1, ![n]⟩ : Shape).BroadcastsInDim (⟨2, ![n, 1]⟩ : Shape) ![0]) (j : Fin n) (u : Fin 1) :
    broadcastInDim (⟨2, ![n, 1]⟩ : Shape) ![0] hb1
        (select (cmpi .slt a (broadcastInDim (⟨1, ![n]⟩ : Shape) ![] hb0 (constantI (⟨0, ![]⟩ : Shape) 32 0#32)))
          (addi a (broadcastInDim (⟨1, ![n]⟩ : Shape) ![] hb0 (constantI (⟨0, ![]⟩ : Shape) 32 lim))) a) (ix2 j u)
      = wrap (a (ix1 j)) lim := by
  refine (broadcastInDim_apply _ hb1 _ (ix2 j u) (ix1 j) (fun ax => ?_)).trans ?_
  · match ax with
    | ⟨0, _⟩ =>
      show j.val = if n = 1 then 0 else j.val
      split
      · have := j.isLt; omega
      · rfl
  · rfl

/-- A plain column of positions built from a vector, read at row `j`. -/
theorem col_apply {n : ℕ} (a : (⟨1, ![n]⟩ : Shape).Idx → α)
    (hb1 : (⟨1, ![n]⟩ : Shape).BroadcastsInDim (⟨2, ![n, 1]⟩ : Shape) ![0]) (j : Fin n) (u : Fin 1) :
    broadcastInDim (⟨2, ![n, 1]⟩ : Shape) ![0] hb1 a (ix2 j u) = a (ix1 j) := by
  refine broadcastInDim_apply _ hb1 _ (ix2 j u) (ix1 j) (fun ax => ?_)
  match ax with
  | ⟨0, _⟩ =>
    show j.val = if n = 1 then 0 else j.val
    split
    · have := j.isLt; omega
    · rfl

/-! ## Gathers -/

/-- The dimension numbers of a row gather: table `[M, b]`, positions `[n, 1]`, result `[n, b]`. -/
abbrev rowsDims (M n b : ℕ)
    (wf : GatherDims.WF (⟨2, ![M, b]⟩ : Shape) (⟨2, ![n, 1]⟩ : Shape) (⟨2, ![n, b]⟩ : Shape) [1] [0] [] [0] [] 1 ![1, b]) :
    GatherDims (⟨2, ![M, b]⟩ : Shape) (⟨2, ![n, 1]⟩ : Shape) (⟨2, ![n, b]⟩ : Shape) where
  offsetDims := [1]
  collapsedSliceDims := [0]
  operandBatchingDims := []
  startIndicesBatchingDims := []
  startIndexMap := [0]
  indexVectorDim := 1
  sliceSizes := ![1, b]
  wf := wf

/-- The row gather at `(j, q)`: column `q` of the row that position `j` names. -/
theorem gatherRows_apply {M n b w : ℕ} (hM : 0 < M)
    (wf : GatherDims.WF (⟨2, ![M, b]⟩ : Shape) (⟨2, ![n, 1]⟩ : Shape) (⟨2, ![n, b]⟩ : Shape) [1] [0] [] [0] [] 1 ![1, b])
    (x : (⟨2, ![M, b]⟩ : Shape).Idx → α) (idx : IVec (⟨2, ![n, 1]⟩ : Shape) w) (j : Fin n) (q : Fin b) :
    Host.gather (rowsDims M n b wf) x idx (ix2 j q)
      = x (ix2 (⟨min (idx (ix2 j (0 : Fin 1))).toInt.toNat (M - 1), by omega⟩ : Fin M) q) := by
  unfold Host.gather
  congr 1
  funext a
  refine Fin.ext ?_
  show (rowsDims M n b wf).start (ix2 j q) idx a + (rowsDims M n b wf).batchCoord (ix2 j q) a
      + (rowsDims M n b wf).offCoord (ix2 j q) a = _
  rw [GatherDims.batchCoord_eq_zero _ _ _ List.not_mem_nil]
  have h0 : (rowsDims M n b wf).start (ix2 j q) idx (0 : Fin 2) + 0 + (rowsDims M n b wf).offCoord (ix2 j q) (0 : Fin 2)
      = min (idx (ix2 j (0 : Fin 1))).toInt.toNat (M - 1) := by
    rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims M n b wf).startIndexMap from List.mem_singleton.mpr rfl)]
    have hsi : (rowsDims M n b wf).siIdx (ix2 j q) ⟨List.idxOf (0 : Fin 2) (rowsDims M n b wf).startIndexMap,
        List.idxOf_lt_length_iff.2 (List.mem_singleton.mpr rfl)⟩ = ix2 j (0 : Fin 1) := by
      funext c; refine Fin.ext ?_
      match c with
      | ⟨0, _⟩ => rfl
      | ⟨1, _⟩ => rfl
    rw [hsi]
    rfl
  have h1 : (rowsDims M n b wf).start (ix2 j q) idx (1 : Fin 2) + 0 + (rowsDims M n b wf).offCoord (ix2 j q) (1 : Fin 2)
      = q.val := by
    have hs : (rowsDims M n b wf).start (ix2 j q) idx (1 : Fin 2) = 0 := by
      unfold GatherDims.start
      rw [dif_neg (by simp)]
    have ho : (rowsDims M n b wf).offCoord (ix2 j q) (1 : Fin 2) = q.val := by
      unfold GatherDims.offCoord
      rw [dif_pos (by simp [GatherDims.sKept, Shape.kept])]
      rfl
    rw [hs, ho]; omega
  match a with
  | ⟨0, _⟩ => exact h0
  | ⟨1, _⟩ => exact h1

/-- The dimension numbers of a gather of a vector: `[M]` at positions `[n, 1]` into `[n]`. -/
abbrev vecDims (M n : ℕ)
    (wf : GatherDims.WF (⟨1, ![M]⟩ : Shape) (⟨2, ![n, 1]⟩ : Shape) (⟨1, ![n]⟩ : Shape) [] [0] [] [0] [] 1 ![1]) :
    GatherDims (⟨1, ![M]⟩ : Shape) (⟨2, ![n, 1]⟩ : Shape) (⟨1, ![n]⟩ : Shape) where
  offsetDims := []
  collapsedSliceDims := [0]
  operandBatchingDims := []
  startIndicesBatchingDims := []
  startIndexMap := [0]
  indexVectorDim := 1
  sliceSizes := ![1]
  wf := wf

/-- The vector gather at `j`: the entry that position `j` names. -/
theorem gatherVec_apply {M n w : ℕ} (hM : 0 < M)
    (wf : GatherDims.WF (⟨1, ![M]⟩ : Shape) (⟨2, ![n, 1]⟩ : Shape) (⟨1, ![n]⟩ : Shape) [] [0] [] [0] [] 1 ![1])
    (x : (⟨1, ![M]⟩ : Shape).Idx → α) (idx : IVec (⟨2, ![n, 1]⟩ : Shape) w) (j : Fin n) :
    Host.gather (vecDims M n wf) x idx (ix1 j)
      = x (ix1 (⟨min (idx (ix2 j (0 : Fin 1))).toInt.toNat (M - 1), by omega⟩ : Fin M)) := by
  unfold Host.gather
  congr 1
  funext a
  obtain rfl : a = 0 := Subsingleton.elim _ _
  refine Fin.ext ?_
  show (vecDims M n wf).start (ix1 j) idx 0 + (vecDims M n wf).batchCoord (ix1 j) 0 + (vecDims M n wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims M n wf).startIndexMap from List.mem_singleton.mpr rfl)]
  have hsi : (vecDims M n wf).siIdx (ix1 j) ⟨List.idxOf (0 : Fin 1) (vecDims M n wf).startIndexMap,
      List.idxOf_lt_length_iff.2 (List.mem_singleton.mpr rfl)⟩ = ix2 j (0 : Fin 1) := by
    funext c; refine Fin.ext ?_
    match c with
    | ⟨0, _⟩ => rfl
    | ⟨1, _⟩ => rfl
  rw [hsi]
  rfl

end Cert.Rows
-- ==== Proof.LibRowScatter.lean ====
/-
  The accumulating scatter of rows into a table, a trailing padding of a vector and a leading slice of a vector, each
  read at an index given by coordinates.

  Rows `[n, b]` scattered at a column of positions `[n, 1]` into a table `[M, b]`, accumulating: entry `(i, q)` of
  the result is the table's entry plus the sum, over all rows `j`, of the row's entry of column `q` when the row's
  position, read as a signed integer and not clamped, is `i`, and of zero when it is not. A row positioned outside
  the table is added nowhere.
-/
import Idealize.ShloMosaic.Lib.ValueIdx
import Idealize.ShloMosaic.Lib.Pipeline.Value
import Idealize.ShloMosaic.PureOps.Ideal.Laws

namespace Cert.RowScatter

open Idealize.ShloMosaic Idealize.ShloMosaic.ValueIdx

variable {α : Type} {M n b w : ℕ}

/-- The dimension numbers of the row scatter: the table's axis 0 is the scattered one, its axis 1 the window. -/
abbrev rowsScatter (M n b : ℕ)
    (wf : ScatterDims.WF (⟨2, ![M, b]⟩ : Shape) (⟨2, ![n, 1]⟩ : Shape) (⟨2, ![n, b]⟩ : Shape) [1] [0] [0] 1) :
    ScatterDims (⟨2, ![M, b]⟩ : Shape) (⟨2, ![n, 1]⟩ : Shape) (⟨2, ![n, b]⟩ : Shape) :=
  ScatterDims.mk [1] [0] [0] 1 wf

/-- Entry `(j, q)` of the rows lands at `(i, r)` exactly when the position of row `j`, read signed, is `i` and the
    columns agree. -/
theorem resultIdx?_iff (wf : ScatterDims.WF (⟨2, ![M, b]⟩ : Shape) (⟨2, ![n, 1]⟩ : Shape) (⟨2, ![n, b]⟩ : Shape) [1] [0] [0] 1)
    (idx : IVec (⟨2, ![n, 1]⟩ : Shape) w) (j : Fin n) (q : Fin b) (i : Fin M) (r : Fin b) :
    (rowsScatter M n b wf).resultIdx? (ix2 j q) idx = some (ix2 i r)
      ↔ (idx (ix2 j (0 : Fin 1))).toInt = (i.val : ℤ) ∧ q = r := by
  set d := rowsScatter M n b wf with hd
  have hs0 : d.start (ix2 j q) idx (0 : Fin 2) = (idx (ix2 j (0 : Fin 1))).toInt := by
    unfold ScatterDims.start
    rw [dif_pos (by simp [hd])]
    congr 2
    funext c; apply Fin.ext
    match c with
    | ⟨0, _⟩ => rfl
    | ⟨1, _⟩ => rfl
  have hs1 : d.start (ix2 j q) idx (1 : Fin 2) = 0 := by
    unfold ScatterDims.start
    rw [dif_neg (by simp [hd])]
  have hw0 : d.window (ix2 j q) (0 : Fin 2) = 0 := by
    unfold ScatterDims.window
    rw [dif_neg (by simp [hd, ScatterDims.sKept, Shape.kept])]
  have hw1 : d.window (ix2 j q) (1 : Fin 2) = q.val := by
    unfold ScatterDims.window
    rw [dif_pos (by simp [hd, ScatterDims.sKept, Shape.kept])]
    rfl
  unfold ScatterDims.resultIdx?
  constructor
  · intro h
    split at h
    · rename_i hc
      have hf := Option.some.inj h
      have e0 : (d.start (ix2 j q) idx (0 : Fin 2) + (d.window (ix2 j q) (0 : Fin 2) : ℤ)).toNat = i.val :=
        congrArg Fin.val (congrFun hf (0 : Fin 2))
      have e1 : (d.start (ix2 j q) idx (1 : Fin 2) + (d.window (ix2 j q) (1 : Fin 2) : ℤ)).toNat = r.val :=
        congrArg Fin.val (congrFun hf (1 : Fin 2))
      have c0 := (hc (0 : Fin 2)).1
      rw [hs0, hw0] at e0 c0
      rw [hs1, hw1] at e1
      refine ⟨by omega, Fin.ext (by omega)⟩
    · exact absurd h (by simp)
  · rintro ⟨h, rfl⟩
    have hc : ∀ a, 0 ≤ d.start (ix2 j q) idx a + (d.window (ix2 j q) a : ℤ) ∧
        d.start (ix2 j q) idx a + (d.window (ix2 j q) a : ℤ) < ((⟨2, ![M, b]⟩ : Shape).size a : ℤ) := by
      intro a
      have c0 : 0 ≤ d.start (ix2 j q) idx (0 : Fin 2) + (d.window (ix2 j q) (0 : Fin 2) : ℤ) ∧
          d.start (ix2 j q) idx (0 : Fin 2) + (d.window (ix2 j q) (0 : Fin 2) : ℤ) < (M : ℤ) := by
        rw [hs0, hw0, h]; have := i.isLt; omega
      have c1 : 0 ≤ d.start (ix2 j q) idx (1 : Fin 2) + (d.window (ix2 j q) (1 : Fin 2) : ℤ) ∧
          d.start (ix2 j q) idx (1 : Fin 2) + (d.window (ix2 j q) (1 : Fin 2) : ℤ) < (b : ℤ) := by
        rw [hs1, hw1]; have := q.isLt; omega
      match a with
      | ⟨0, _⟩ => exact c0
      | ⟨1, _⟩ => exact c1
    rw [dif_pos hc]
    congr 1
    funext a
    apply Fin.ext
    have v0 : (d.start (ix2 j q) idx (0 : Fin 2) + (d.window (ix2 j q) (0 : Fin 2) : ℤ)).toNat = i.val := by
      rw [hs0, hw0, h]; simp
    have v1 : (d.start (ix2 j q) idx (1 : Fin 2) + (d.window (ix2 j q) (1 : Fin 2) : ℤ)).toNat = q.val := by
      rw [hs1, hw1]; simp
    match a with
    | ⟨0, _⟩ => exact v0
    | ⟨1, _⟩ => exact v1

/-- The accumulating row scatter at `(i, q)`: what was there plus column `q` of every row positioned at `i`. -/
theorem scatterAddRows_apply
    (wf : ScatterDims.WF (⟨2, ![M, b]⟩ : Shape) (⟨2, ![n, 1]⟩ : Shape) (⟨2, ![n, b]⟩ : Shape) [1] [0] [0] 1)
    (x : (⟨2, ![M, b]⟩ : Shape).Idx → EReal) (idx : IVec (⟨2, ![n, 1]⟩ : Shape) w)
    (upd : (⟨2, ![n, b]⟩ : Shape).Idx → EReal) (i : Fin M) (q : Fin b) :
    Ideal.hostScatterAdd (rowsScatter M n b wf) x idx upd (ix2 i q)
      = x (ix2 i q) + ∑ j : Fin n, if (idx (ix2 j (0 : Fin 1))).toInt = (i.val : ℤ) then upd (ix2 j q) else 0 := by
  unfold Ideal.hostScatterAdd
  rw [Finset.sum_filter, sum_idx2]
  congr 1
  refine Finset.sum_congr rfl fun j _ => ?_
  simp only [resultIdx?_iff wf idx j _ i q]
  by_cases hA : (idx (ix2 j (0 : Fin 1))).toInt = (i.val : ℤ)
  · simp only [hA, true_and, if_true]
    rw [Finset.sum_eq_single q (fun r _ hr => if_neg hr) (fun h => absurd (Finset.mem_univ q) h)]
    exact if_pos rfl
  · simp only [hA, false_and, if_false, Finset.sum_const_zero]

/-! ## A trailing padding and a leading slice -/

/-- A vector padded at its end, read before the padding: the vector's entry. -/
theorem pad_lt {n N hi : ℕ} (x : (⟨1, ![n]⟩ : Shape).Idx → α) {u : Shape} (v : u.Idx → α)
    (hp : (⟨1, ![n]⟩ : Shape).Pads ![0] ![hi] ![0] (⟨1, ![N]⟩ : Shape)) (hu : 0 < u.numel) (j : Fin N) (hj : j.val < n) :
    pad (⟨1, ![N]⟩ : Shape) ![0] ![hi] ![0] x v hp hu (ix1 j) = x (ix1 ⟨j.val, hj⟩) := by
  unfold pad
  split
  · congr 1
    funext a
    obtain rfl : a = 0 := Subsingleton.elim _ _
    apply Fin.ext
    show (j.val - 0) / (0 + 1) = j.val
    omega
  · rename_i hn
    refine absurd (fun a => ?_) hn
    obtain rfl : a = 0 := Subsingleton.elim _ _
    show 0 ≤ j.val ∧ (j.val - 0) % (0 + 1) = 0 ∧ (j.val - 0) / (0 + 1) < n
    refine ⟨Nat.zero_le _, by omega, by omega⟩

/-- A vector padded at its end, read inside the padding: the padding value. -/
theorem pad_ge {n N hi : ℕ} (x : (⟨1, ![n]⟩ : Shape).Idx → α) {u : Shape} (v : u.Idx → α)
    (hp : (⟨1, ![n]⟩ : Shape).Pads ![0] ![hi] ![0] (⟨1, ![N]⟩ : Shape)) (hu : 0 < u.numel) (j : Fin N) (hj : n ≤ j.val) :
    pad (⟨1, ![N]⟩ : Shape) ![0] ![hi] ![0] x v hp hu (ix1 j) = v (Shape.Idx.first hu) := by
  unfold pad
  split
  · rename_i hin
    have h0 := (hin (0 : Fin 1)).2.2
    have : (j.val - 0) / (0 + 1) < n := h0
    omega
  · rfl

/-- The leading slice of a vector reads the vector's entry of the same position. -/
theorem sliceHead_apply {n N : ℕ} (x : (⟨1, ![N]⟩ : Shape).Idx → α)
    (h : (⟨1, ![N]⟩ : Shape).Slices ![0] (⟨1, ![n]⟩ : Shape)) (i : Fin n) (hi : i.val < N) :
    extractStridedSlice (⟨1, ![n]⟩ : Shape) ![0] x h (ix1 i) = x (ix1 ⟨i.val, hi⟩) := by
  refine extractStridedSlice_apply _ x h (ix1 i) (ix1 ⟨i.val, hi⟩) fun a => ?_
  obtain rfl : a = 0 := Subsingleton.elim _ _
  show i.val = 0 + i.val
  omega

end Cert.RowScatter
-- ==== Proof.LibHostScatterRows.lean ====
/-
  The host's accumulating row scatter, as a host program spells it, read at an entry of the table.

  Rows `[n, b]` scattered at a column of positions `[n, 1]` into a table `[M, b]`, accumulating, on the extended reals: entry
  `(i, q)` of the result is the table's entry plus the sum, over all rows `j`, of the row's entry of column `q` when the row's
  position, read as a signed integer, is `i`, and of zero when it is not.

  The statement is over VARIABLE operands. That matters on large shapes: asking the elaborator to identify the host
  spelling with its value at the extended reals on concrete operands (long terms over arrays of a million rows) can cost
  gigabytes, while over variables the identification is immediate; a proof then rewrites with this lemma, and meets a
  concrete host scatter only head to head with another host scatter.
-/
import proofs.«121131_j79285096284697_2_alg».proof.Proof.LibRowScatter

noncomputable section

namespace Cert.HostScatterRows

open Idealize.ShloMosaic Idealize.ShloMosaic.ValueIdx

/-- The accumulating row scatter in the host's spelling at `(i, q)`: what was there plus column `q` of every row positioned at
    `i`. -/
theorem scatterAddRows_host {M n b w : ℕ}
    (wf : ScatterDims.WF (⟨2, ![M, b]⟩ : Shape) (⟨2, ![n, 1]⟩ : Shape) (⟨2, ![n, b]⟩ : Shape) [1] [0] [0] 1)
    (x : (⟨2, ![M, b]⟩ : Shape).Idx → EReal) (idx : IVec (⟨2, ![n, 1]⟩ : Shape) w)
    (upd : (⟨2, ![n, b]⟩ : Shape).Idx → EReal) (i : Fin M) (q : Fin b) :
    Host.scatterAdd (F := Ideal) (φ := .f32) (Cert.RowScatter.rowsScatter M n b wf) x idx upd (ix2 i q)
      = x (ix2 i q) + ∑ j : Fin n, if (idx (ix2 j (0 : Fin 1))).toInt = (i.val : ℤ) then upd (ix2 j q) else 0 :=
  Cert.RowScatter.scatterAddRows_apply wf x idx upd i q

end Cert.HostScatterRows

end
-- ==== Proof.Aggregate.lean ====
/-
  The edge aggregation read at an entry.

  A table `H` of 100000 rows is gathered at the million source positions — a negative position counting from the end, the
  result read signed and clamped into the table — and the gathered rows are accumulated, from zero, at the million destination
  positions, a row positioned outside the table being added nowhere. Entry `(i, q)` of the result is the sum, over the
  edges whose destination is `i`, of the entry `q` of the row the edge's source names.
-/
import proofs.«121131_j79285096284697_2_alg».proof.Proof.LibRows
import proofs.«121131_j79285096284697_2_alg».proof.Proof.LibRowScatter
import proofs.«121131_j79285096284697_2_alg».proof.Proof.LibHostScatterRows

noncomputable section

namespace Cert.GraphConv

open Idealize.ShloMosaic Idealize.ShloMosaic.ValueIdx

/-- The row of the table an edge's source position names. -/
def srcRow (src : (⟨1, ![1000000]⟩ : Shape).Idx → BitVec 32) (e : Fin 1000000) : Fin 100000 :=
  Cert.Rows.rowOf 100000 (by decide) (Cert.Rows.wrap (src (ix1 e)) 100000#32)

/-- Whether an edge arrives at node `i`: its destination position, read signed, is `i`. -/
def arrives (dst : (⟨1, ![1000000]⟩ : Shape).Idx → BitVec 32) (i : Fin 100000) (e : Fin 1000000) : Prop :=
  (dst (ix1 e)).toInt = (i.val : ℤ)

instance (dst : (⟨1, ![1000000]⟩ : Shape).Idx → BitVec 32) (i : Fin 100000) : DecidablePred (arrives dst i) :=
  fun _ => inferInstanceAs (Decidable (_ = _))

/-- The sum over the edges arriving at `i` of a quantity of the edge's source row. -/
def aggregate {b : ℕ} (src dst : (⟨1, ![1000000]⟩ : Shape).Idx → BitVec 32) (h : Fin 100000 → Fin b → EReal)
    (i : Fin 100000) (q : Fin b) : EReal :=
  ∑ e : Fin 1000000, if arrives dst i e then h (srcRow src e) q else 0

/-- The gather at the normalised sources followed by the accumulating scatter at the destinations, from a zero table, at
    `(i, q)`. -/
theorem aggregate_read {b : ℕ}
    (wfS : ScatterDims.WF (⟨2, ![100000, b]⟩ : Shape) (⟨2, ![1000000, 1]⟩ : Shape) (⟨2, ![1000000, b]⟩ : Shape) [1] [0] [0] 1)
    (wfG : GatherDims.WF (⟨2, ![100000, b]⟩ : Shape) (⟨2, ![1000000, 1]⟩ : Shape) (⟨2, ![1000000, b]⟩ : Shape) [1] [0] [] [0] [] 1 ![1, b])
    (hz : (⟨0, ![]⟩ : Shape).BroadcastsInDim (⟨2, ![100000, b]⟩ : Shape) ![])
    (hb0 : (⟨0, ![]⟩ : Shape).BroadcastsInDim (⟨1, ![1000000]⟩ : Shape) ![])
    (hb1 : (⟨1, ![1000000]⟩ : Shape).BroadcastsInDim (⟨2, ![1000000, 1]⟩ : Shape) ![0])
    (src dst : IVec (⟨1, ![1000000]⟩ : Shape) 32) (H : (⟨2, ![100000, b]⟩ : Shape).Idx → EReal) (i : Fin 100000) (q : Fin b) :
    Host.scatterAdd (F := Ideal) (φ := .f32) (Cert.RowScatter.rowsScatter 100000 1000000 b wfS)
        (broadcastInDim (⟨2, ![100000, b]⟩ : Shape) ![] hz (constant (F := Ideal) (⟨0, ![]⟩ : Shape) .f32 0x00000000#32))
        (broadcastInDim (⟨2, ![1000000, 1]⟩ : Shape) ![0] hb1 dst)
        (Host.gather (Cert.Rows.rowsDims 100000 1000000 b wfG) H
          (broadcastInDim (⟨2, ![1000000, 1]⟩ : Shape) ![0] hb1
            (select (cmpi .slt src (broadcastInDim (⟨1, ![1000000]⟩ : Shape) ![] hb0 (constantI (⟨0, ![]⟩ : Shape) 32 0#32)))
              (addi src (broadcastInDim (⟨1, ![1000000]⟩ : Shape) ![] hb0 (constantI (⟨0, ![]⟩ : Shape) 32 100000#32))) src)))
        (ix2 i q)
      = aggregate src dst (fun n k => H (ix2 n k)) i q := by
  rw [Cert.HostScatterRows.scatterAddRows_host]
  have h0 : broadcastInDim (⟨2, ![100000, b]⟩ : Shape) ![] hz (constant (F := Ideal) (⟨0, ![]⟩ : Shape) .f32 0x00000000#32) (ix2 i q)
      = 0 := Ideal.ofBits_zero_f32
  rw [h0, zero_add]
  unfold aggregate
  refine Finset.sum_congr rfl fun e _ => ?_
  rw [Cert.Rows.col_apply, Cert.Rows.gatherRows_apply (by decide : 0 < 100000)]
  have hw := Cert.Rows.wrapCol_apply src 100000#32 hb0 hb1 e (0 : Fin 1)
  simp only [hw]
  rfl

end Cert.GraphConv

end
-- ==== Proof.LibScaleSum.lean ====
/-
  A nonnegative finite factor moves across a finite sum of extended reals.

  On the extended reals multiplication does not distribute over addition in general (∞ − ∞ spoils it), but it does for a
  factor `r` with `0 ≤ r < ⊤`. Hence, for any families `a`, `b` of extended reals,
  `∑ k, (a k · r) · b k = (∑ k, a k · b k) · r`: scaling one factor of every product of an inner product scales the inner
  product — with no assumption on `a` or `b`.
-/
import Mathlib.Data.EReal.Operations
import Mathlib.Data.EReal.Inv
import Mathlib.Algebra.BigOperators.Group.Finset.Basic

namespace Cert.LibScaleSum

open scoped BigOperators

/-- A nonnegative finite factor distributes over a finite sum of extended reals. -/
theorem mul_sum_of_nonneg_of_ne_top {ι : Type*} (s : Finset ι) (f : ι → EReal) {r : EReal} (h0 : 0 ≤ r) (ht : r ≠ ⊤) :
    r * ∑ k ∈ s, f k = ∑ k ∈ s, r * f k := by
  classical
  induction s using Finset.induction_on with
  | empty => simp
  | insert i s hi ih =>
    rw [Finset.sum_insert hi, Finset.sum_insert hi, EReal.left_distrib_of_nonneg_of_ne_top h0 ht, ih]

/-- Scaling the left factor of every product by a nonnegative finite `r` scales the sum of products by `r`. -/
theorem sum_scale_left {ι : Type*} (s : Finset ι) (a b : ι → EReal) {r : EReal} (h0 : 0 ≤ r) (ht : r ≠ ⊤) :
    ∑ k ∈ s, (a k * r) * b k = (∑ k ∈ s, a k * b k) * r := by
  rw [mul_comm (∑ k ∈ s, a k * b k) r, mul_sum_of_nonneg_of_ne_top s _ h0 ht]
  refine Finset.sum_congr rfl fun k _ => ?_
  rw [mul_comm (a k) r, mul_assoc]

/-- The same with the two factors of each product exchanged on the right-hand side. -/
theorem sum_scale_left_comm {ι : Type*} (s : Finset ι) (a b : ι → EReal) {r : EReal} (h0 : 0 ≤ r) (ht : r ≠ ⊤) :
    ∑ k ∈ s, (a k * r) * b k = (∑ k ∈ s, b k * a k) * r := by
  rw [sum_scale_left s a b h0 ht]
  exact congrArg (· * r) (Finset.sum_congr rfl fun k _ => mul_comm _ _)

end Cert.LibScaleSum
-- ==== Proof.LibNonnegSum.lean ====
/-
  A finite sum of NONNEGATIVE extended reals times any factor is the sum of the products; and with it, the law that lets a
  linear projection pass through a masked aggregation.

  On the extended reals multiplication does not distribute over addition in general (∞ − ∞ spoils it). It does over a sum
  of nonnegative terms, whatever the factor (`sum_mul_of_nonneg`), with no finiteness asked.

  The application (`project_aggregate`): one output entry of a graph-convolution layer is, in one arrangement, an inner
  product over the hidden features `k` whose left factors are the aggregated features scaled by the destination's
  normalisation `d`:
      ∑ k, ((∑ e, [e arrives] · Y e k) · d) · W k,
  and in the other the aggregate of already projected rows, scaled afterwards:
      (∑ e, [e arrives] · ∑ k, Y e k · W k) · d.
  The two agree because every `Y e k` is nonnegative (a product of a rectified value and a nonnegative scale), so a sum of them times any factor is
  the sum of the products, and because `d` is nonnegative and finite, so it moves across a finite sum. No finiteness of
  `Y` or `W` is asked.
-/
import Mathlib.Data.EReal.Operations
import Mathlib.Data.EReal.Inv
import Mathlib.Algebra.BigOperators.Group.Finset.Basic
import Mathlib.Algebra.Order.BigOperators.Group.Finset
import proofs.«121131_j79285096284697_2_alg».proof.Proof.LibScaleSum

namespace Cert.LibNonnegSum

open scoped BigOperators

/-- A finite sum of nonnegative extended reals times any factor is the sum of the products. -/
theorem sum_mul_of_nonneg {ι : Type*} (s : Finset ι) (f : ι → EReal) (hf : ∀ e ∈ s, 0 ≤ f e) (c : EReal) :
    (∑ e ∈ s, f e) * c = ∑ e ∈ s, f e * c := by
  classical
  induction s using Finset.induction_on with
  | empty => simp
  | insert i s hi ih =>
    rw [Finset.sum_insert hi, Finset.sum_insert hi,
      EReal.right_distrib_of_nonneg (hf i (Finset.mem_insert_self i s))
        (Finset.sum_nonneg fun e he => hf e (Finset.mem_insert_of_mem he)),
      ih fun e he => hf e (Finset.mem_insert_of_mem he)]

/-- Projecting after aggregating and scaling is aggregating the projected rows and scaling after: for nonnegative `Y` and a
    nonnegative finite scale `d`. -/
theorem project_aggregate {ι κ : Type*} [Fintype ι] [Fintype κ] (arrives : ι → Prop) [DecidablePred arrives]
    (Y : ι → κ → EReal) (hY : ∀ e k, 0 ≤ Y e k) (W : κ → EReal) {d : EReal} (h0 : 0 ≤ d) (ht : d ≠ ⊤) :
    ∑ k, ((∑ e, if arrives e then Y e k else 0) * d) * W k
      = (∑ e, if arrives e then ∑ k, Y e k * W k else 0) * d := by
  rw [Cert.LibScaleSum.sum_scale_left Finset.univ (fun k => ∑ e, if arrives e then Y e k else 0) W h0 ht]
  refine congrArg (· * d) ?_
  calc ∑ k, (∑ e, if arrives e then Y e k else 0) * W k
      = ∑ k, ∑ e, (if arrives e then Y e k else 0) * W k :=
        Finset.sum_congr rfl fun k _ => sum_mul_of_nonneg _ _ (fun e _ => by split; exact hY e k; exact le_rfl) _
    _ = ∑ e, ∑ k, (if arrives e then Y e k else 0) * W k := Finset.sum_comm
    _ = ∑ e, if arrives e then ∑ k, Y e k * W k else 0 :=
        Finset.sum_congr rfl fun e _ => by
          by_cases h : arrives e
          · simp only [h, if_true]
          · simp only [h, if_false, zero_mul, Finset.sum_const_zero]

end Cert.LibNonnegSum
-- ==== Proof.Spec.lean ====
/-
  The two-layer graph convolution at an output entry, in the two arrangements the two programs compute, and their equality.

  Data: the node features `X`, the edges' source and destination positions, the per-node scales `ns` (from the out-degree)
  and `nd` (from the in-degree), two weight matrices and two bias rows.

  First layer, node `n`, hidden feature `k`: aggregate the source-scaled features over the edges arriving at `n`, scale by
  `nd n`, apply the dense transform `· W1 + B1`, rectify. Both programs then scale the hidden row by `ns n`.

  Second layer, node `i`, output feature `q`. One program aggregates the scaled hidden rows, scales by `nd i`, and then
  projects with `W2`; the other projects every node's scaled hidden row with `W2` first and aggregates the projections,
  scaling by `nd i` afterwards. Both add `B2 q` and rectify. The two agree because the scaled hidden rows are nonnegative
  and the scales are nonnegative and finite (module LibNonnegSum).
-/
import proofs.«121131_j79285096284697_2_alg».proof.Proof.Aggregate
import proofs.«121131_j79285096284697_2_alg».proof.Proof.LibNonnegSum
import Idealize.ShloMosaic.PureOps.Ideal.Laws

noncomputable section

namespace Cert.GraphConv

open Idealize.ShloMosaic Idealize.ShloMosaic.ValueIdx

/-- A hidden feature of a node, scaled for the next layer: the node's aggregated features `a`, scaled by `cd`, through the
    dense transform and the rectifier, times `cs`. -/
def hiddenScaled (a : Fin 64 → EReal) (cd cs : EReal) (W1 : (⟨2, ![64, 64]⟩ : Shape).Idx → EReal) (B1 : Fin 64 → EReal)
    (k : Fin 64) : EReal :=
  max ((∑ k' : Fin 64, (a k' * cd) * W1 (ix2 k' k)) + B1 k) (Ideal.ofBits .f32 0x00000000#32) * cs

/-- A scaled hidden feature is nonnegative when the scale `cs` is. -/
theorem hiddenScaled_nonneg (a : Fin 64 → EReal) (cd cs : EReal) (W1 : (⟨2, ![64, 64]⟩ : Shape).Idx → EReal)
    (B1 : Fin 64 → EReal) (k : Fin 64) (hcs : 0 ≤ cs) : 0 ≤ hiddenScaled a cd cs W1 B1 k :=
  mul_nonneg (le_max_of_le_right (le_of_eq Ideal.ofBits_zero_f32.symm)) hcs

section

variable (src dst : (⟨1, ![1000000]⟩ : Shape).Idx → BitVec 32) (ns nd : Fin 100000 → EReal)
  (X : (⟨2, ![100000, 64]⟩ : Shape).Idx → EReal) (W1 : (⟨2, ![64, 64]⟩ : Shape).Idx → EReal) (B1 : Fin 64 → EReal)
  (W2 : (⟨2, ![64, 32]⟩ : Shape).Idx → EReal) (B2 : Fin 32 → EReal)

/-- The features scaled at the source. -/
def scaledFeature (n : Fin 100000) (k : Fin 64) : EReal := X (ix2 n k) * ns n

/-- The scaled hidden row of node `n`. -/
def hiddenRow (n : Fin 100000) (k : Fin 64) : EReal :=
  hiddenScaled (fun k' => aggregate src dst (scaledFeature ns X) n k') (nd n) (ns n) W1 B1 k

/-- Project every node's scaled hidden row, aggregate the projections, scale, add the bias, rectify. -/
def projectThenAggregate (i : Fin 100000) (q : Fin 32) : EReal :=
  max (aggregate src dst (fun n q' => ∑ k : Fin 64, hiddenRow src dst ns nd X W1 B1 n k * W2 (ix2 k q')) i q * nd i + B2 q)
    (Ideal.ofBits .f32 0x00000000#32)

/-- Aggregate the scaled hidden rows, scale, project, add the bias, rectify. -/
def aggregateThenProject (i : Fin 100000) (q : Fin 32) : EReal :=
  max ((∑ k : Fin 64, (aggregate src dst (hiddenRow src dst ns nd X W1 B1) i k * nd i) * W2 (ix2 k q)) + B2 q)
    (Ideal.ofBits .f32 0x00000000#32)

/-- The two arrangements agree, entry by entry, when the scales are nonnegative and the destination scale is finite. -/
theorem project_aggregate_comm (hns : ∀ n, 0 ≤ ns n) (hnd : ∀ n, 0 ≤ nd n ∧ nd n ≠ ⊤) (i : Fin 100000) (q : Fin 32) :
    projectThenAggregate src dst ns nd X W1 B1 W2 B2 i q = aggregateThenProject src dst ns nd X W1 B1 W2 B2 i q := by
  unfold projectThenAggregate aggregateThenProject aggregate
  refine congrArg (fun s => max (s + B2 q) (Ideal.ofBits .f32 0x00000000#32)) ?_
  exact (Cert.LibNonnegSum.project_aggregate (arrives dst i)
    (fun e k => hiddenRow src dst ns nd X W1 B1 (srcRow src e) k)
    (fun e k => hiddenScaled_nonneg _ _ _ _ _ _ (hns _)) (fun k => W2 (ix2 k q)) (hnd i).1 (hnd i).2).symm

end

end Cert.GraphConv

end
-- ==== Proof.Region1.lean ====
/-
  The middle region: the first layer's dense transform fused with the second layer's projection.

  The region walks the 100000 rows in 20 blocks of 5000; the two weight matrices and the bias row are read whole at every
  block. For a row `n` of the aggregate `A`: scale it by the destination scale `Cd (n, 0)`, multiply by the first weight
  matrix, add the bias, rectify — that is the hidden row —, scale it by the source scale `Cs (n, 0)`, and multiply by the
  second weight matrix. Both matrix products run into a zero accumulator, so each is the plain sum over the 64
  contracted positions.
-/
import proofs.«121131_j79285096284697_2_alg».proof.Proof.Gen.KernelIdeal.Frame
import proofs.«121131_j79285096284697_2_alg».proof.Proof.LibLayout
import proofs.«121131_j79285096284697_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Dense

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.GraphConv (hiddenScaled)

theorem hz : (![0, 0] : Fin 2 → Nat) = fun _ => 0 := funext fun a => by fin_cases a <;> rfl

/-- The contraction's operand indices, coordinate by coordinate. -/
theorem mmHidden_lhs0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
theorem mmHidden_rhs1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into a zero accumulator at `(p, c)`: the sum over the 64 contracted positions. -/
theorem mmHidden_at (l : FVec Ideal S5000x64 .f32) (r : FVec Ideal S64x64 .f32) (p : Fin 5000) (c : Fin 64) :
    matmul dot_S5000x64_S64x64_S5000x64_1_0_0_1_n_n none l r (constant S5000x64 .f32 0x00000000#32) (ix2 p c) = ∑ k : Fin 64, l (ix2 p k) * r (ix2 k c) := by
  show FloatOps.matmul dot_S5000x64_S64x64_S5000x64_1_0_0_1_n_n none l r (constant S5000x64 .f32 0x00000000#32) (ix2 p c) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p c) ((contrEquiv1 dot_S5000x64_S64x64_S5000x64_1_0_0_1_n_n 64 rfl rfl).symm k) = ix2 p k :=
    funext fun a => Fin.ext (by
      match a with
      | ⟨0, _⟩ => exact mmHidden_lhs0 _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p c) ((contrEquiv1 dot_S5000x64_S64x64_S5000x64_1_0_0_1_n_n 64 rfl rfl).symm k) = ix2 k c :=
    funext fun a => Fin.ext (by
      match a with
      | ⟨0, _⟩ => exact (dot_S5000x64_S64x64_S5000x64_1_0_0_1_n_n.rhsIdx_val_of_single rfl _ _).trans hk
      | ⟨1, _⟩ => exact mmHidden_rhs1 _ _)
  rw [el, er]

/-- The contraction's operand indices, coordinate by coordinate. -/
theorem mmOut_lhs0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide),
    dif_pos (show (0 : Fin S5000x64.rank) ∈ dot_S5000x64_S64x32_S5000x32_1_0_0_1_n_n.lhsNonContracting by decide)]
  rfl
theorem mmOut_rhs1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide),
    dif_pos (show (1 : Fin S64x32.rank) ∈ dot_S5000x64_S64x32_S5000x32_1_0_0_1_n_n.rhsNonContracting by decide)]
  rfl

/-- The product into a zero accumulator at `(p, c)`: the sum over the 64 contracted positions. -/
theorem mmOut_at (l : FVec Ideal S5000x64 .f32) (r : FVec Ideal S64x32 .f32) (p : Fin 5000) (c : Fin 32) :
    matmul dot_S5000x64_S64x32_S5000x32_1_0_0_1_n_n none l r (constant S5000x32 .f32 0x00000000#32) (ix2 p c) = ∑ k : Fin 64, l (ix2 p k) * r (ix2 k c) := by
  show FloatOps.matmul dot_S5000x64_S64x32_S5000x32_1_0_0_1_n_n none l r (constant S5000x32 .f32 0x00000000#32) (ix2 p c) = _
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 p c) ((contrEquiv1 dot_S5000x64_S64x32_S5000x32_1_0_0_1_n_n 64 rfl rfl).symm k) = ix2 p k :=
    funext fun a => Fin.ext (by
      match a with
      | ⟨0, _⟩ => exact mmOut_lhs0 _ _
      | ⟨1, _⟩ => exact (dot_S5000x64_S64x32_S5000x32_1_0_0_1_n_n.lhsIdx_val_of_single rfl _ _).trans hk)
  have er : dot_S5000x64_S64x32_S5000x32_1_0_0_1_n_n.rhsIdx (ix2 p c) ((contrEquiv1 dot_S5000x64_S64x32_S5000x32_1_0_0_1_n_n 64 rfl rfl).symm k) = ix2 k c :=
    funext fun a => Fin.ext (by
      match a with
      | ⟨0, _⟩ => exact (dot_S5000x64_S64x32_S5000x32_1_0_0_1_n_n.rhsIdx_val_of_single rfl _ _).trans hk
      | ⟨1, _⟩ => exact mmOut_rhs1 _ _)
  rw [el, er]

/-- The region's output as one function of its six input arrays. -/
def denseRows (A : S100000x64.Idx → EReal) (Cd Cs : S100000x1.Idx → EReal) (W1 : S64x64.Idx → EReal)
    (B1 : S1x64.Idx → EReal) (W2 : S64x32.Idx → EReal) : S100000x32.Idx → EReal :=
  fun i => ∑ k : Fin 64,
    hiddenScaled (fun k' => A (ix2 (⟨(i 0).val, (i 0).isLt⟩ : Fin 100000) k'))
      (Cd (ix2 (⟨(i 0).val, (i 0).isLt⟩ : Fin 100000) (0 : Fin 1)))
      (Cs (ix2 (⟨(i 0).val, (i 0).isLt⟩ : Fin 100000) (0 : Fin 1))) W1 (fun k => B1 (ix2 (0 : Fin 1) k)) k
    * W2 (ix2 k (⟨(i 1).val, (i 1).isLt⟩ : Fin 32))

/-- The body's value at an entry of a block. -/
theorem pay_at (x0 : Vec Ideal S5000x64 .f32) (x1 : Vec Ideal S5000x1 .f32) (x3 : Vec Ideal S64x64 .f32)
    (x4 : Vec Ideal S1x64 .f32) (x2 : Vec Ideal S5000x1 .f32) (x5 : Vec Ideal S64x32 .f32) (p : Fin 5000) (q : Fin 32) :
    k1_pay1 x0 x1 x3 x4 x2 x5 (ix2 p q)
      = ∑ k : Fin 64, hiddenScaled (fun k' => x0 (ix2 p k')) (x1 (ix2 p (0 : Fin 1))) (x2 (ix2 p (0 : Fin 1))) x3 (fun k => x4 (ix2 (0 : Fin 1) k)) k
          * x5 (ix2 k q) := by
  unfold k1_pay1
  rw [mmOut_at]
  refine Finset.sum_congr rfl fun k _ => ?_
  rw [mulf_apply, maximumf_apply, addf_apply, mmHidden_at, shapeCast_self, shapeCast_self, shapeCast_self, shapeCast_self,
    Cert.Attn.Layout.broadcastTo_a1_ab_apply, broadcastTo_1b_ab_apply, broadcast_apply]
  unfold hiddenScaled
  refine congrArg (fun s => max (s + x4 (ix2 (0 : Fin 1) k)) _ * _ * _) ?_
  refine Finset.sum_congr rfl fun k' _ => ?_
  rw [mulf_apply, Cert.Attn.Layout.broadcastTo_a1_ab_apply]

/-- The body's value at an entry is the output array's entry, once the six blocks are read where the entry sits. -/
theorem point_eq (A : S100000x64.Idx → EReal) (Cd Cs : S100000x1.Idx → EReal) (W1 : S64x64.Idx → EReal)
    (B1 : S1x64.Idx → EReal) (W2 : S64x32.Idx → EReal)
    (x0 : Vec Ideal S5000x64 .f32) (x1 : Vec Ideal S5000x1 .f32) (x3 : Vec Ideal S64x64 .f32)
    (x4 : Vec Ideal S1x64 .f32) (x2 : Vec Ideal S5000x1 .f32) (x5 : Vec Ideal S64x32 .f32)
    (y : S5000x32.Idx) (i : S100000x32.Idx)
    (h0 : ∀ u : S5000x64.Idx, (u 0).val = (y 0).val →
      x0 u = A (ix2 (⟨(i 0).val, (i 0).isLt⟩ : Fin 100000) (⟨(u 1).val, (u 1).isLt⟩ : Fin 64)))
    (h1 : ∀ u : S5000x1.Idx, (u 0).val = (y 0).val → x1 u = Cd (ix2 (⟨(i 0).val, (i 0).isLt⟩ : Fin 100000) (0 : Fin 1)))
    (h2 : ∀ u : S5000x1.Idx, (u 0).val = (y 0).val → x2 u = Cs (ix2 (⟨(i 0).val, (i 0).isLt⟩ : Fin 100000) (0 : Fin 1)))
    (h3 : x3 = W1) (h4 : x4 = B1)
    (h5 : ∀ k : Fin 64, x5 (ix2 k (⟨(y 1).val, (y 1).isLt⟩ : Fin 32)) = W2 (ix2 k (⟨(i 1).val, (i 1).isLt⟩ : Fin 32))) :
    k1_pay1 x0 x1 x3 x4 x2 x5 y = denseRows A Cd Cs W1 B1 W2 i := by
  obtain ⟨p, q, rfl⟩ : ∃ (p : Fin 5000) (q : Fin 32), y = ix2 p q := ⟨y 0, y 1, eq_ix2 y⟩
  rw [pay_at]
  unfold denseRows
  refine Finset.sum_congr rfl fun k _ => ?_
  rw [h1 (ix2 p (0 : Fin 1)) rfl, h2 (ix2 p (0 : Fin 1)) rfl, h3, h4, ← h5 k]
  refine congrArg (fun f => hiddenScaled f _ _ W1 (fun k => B1 (ix2 (0 : Fin 1) k)) k * _) ?_
  funext k'
  exact h0 (ix2 p k') rfl

/-- Where the seven windows' blocks sit at point `t`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

variable (V : (c : Dev nD) → (b : Ref sig .tc) → Buf (Elt Ideal) ((c : Thread nD τ).loc b))

/-- What point `t` writes back is block `t` of the output array. -/
theorem flushed_eq (c : Dev nD) (t : Fin cfg1.N) :
    (dat1 V c).flushed 6 t
      = ((cfg1.win 6).blk t).view.read (Elt Ideal)
          (denseRows (V c main_v30) (V c main_v31) (V c main_v32) (V c main_arg2) (V c main_v33) (V c main_arg4)) := by
  show (cfg1.win 6).cut (grid1.coords t) ((dat1 V c).after 6 t) = _
  rw [after1_6]
  unfold out1_6
  rw [View.canon_unit_zero hz]
  simp only [View.ld_unit_zero (S := S5000x64) hz, View.ld_unit_zero (S := S5000x1) hz, View.ld_unit_zero (S := S64x64) hz,
    View.ld_unit_zero (S := S1x64) hz, View.ld_unit_zero (S := S64x32) hz]
  obtain ⟨e0, e1, e2, e3, e4, e5, e6, e7, e8, e9, e10, e11, e12, e13⟩ := idx_facts t
  funext j
  refine point_eq (V c main_v30) (V c main_v31) (V c main_v32) (V c main_arg2) (V c main_v33) (V c main_arg4)
    (iblk1 V c 0 t) (iblk1 V c 1 t) (iblk1 V c 3 t) (iblk1 V c 4 t) (iblk1 V c 2 t) (iblk1 V c 5 t) j
    (((cfg1.win 6).blk t).view.emb j) ?_ ?_ ?_ ?_ ?_ ?_
  · intro u hu
    show V c main_v30 (((cfg1.win 0).blk t).view.emb u) = _
    refine congrArg (V c main_v30) ?_
    funext a; apply Fin.ext
    match a with
    | ⟨0, _⟩ =>
      show win1_0.index t (0 : Fin 2) * 5000 + 1 * (u 0).val = win1_6.index t (0 : Fin 2) * 5000 + 1 * (j 0).val
      omega
    | ⟨1, _⟩ =>
      show win1_0.index t (1 : Fin 2) * 64 + 1 * (u 1).val = (u 1).val
      omega
  · intro u hu
    show V c main_v31 (((cfg1.win 1).blk t).view.emb u) = _
    refine congrArg (V c main_v31) ?_
    funext a; apply Fin.ext
    match a with
    | ⟨0, _⟩ =>
      show win1_1.index t (0 : Fin 2) * 5000 + 1 * (u 0).val = win1_6.index t (0 : Fin 2) * 5000 + 1 * (j 0).val
      omega
    | ⟨1, _⟩ =>
      show win1_1.index t (1 : Fin 2) * 1 + 1 * (u 1).val = 0
      have hu1 : (u 1).val < 1 := (u 1).isLt
      omega
  · intro u hu
    show V c main_v32 (((cfg1.win 2).blk t).view.emb u) = _
    refine congrArg (V c main_v32) ?_
    funext a; apply Fin.ext
    match a with
    | ⟨0, _⟩ =>
      show win1_2.index t (0 : Fin 2) * 5000 + 1 * (u 0).val = win1_6.index t (0 : Fin 2) * 5000 + 1 * (j 0).val
      omega
    | ⟨1, _⟩ =>
      show win1_2.index t (1 : Fin 2) * 1 + 1 * (u 1).val = 0
      have hu1 : (u 1).val < 1 := (u 1).isLt
      omega
  · funext u
    show V c main_arg2 (((cfg1.win 3).blk t).view.emb u) = V c main_arg2 u
    refine congrArg (V c main_arg2) ?_
    funext a; apply Fin.ext
    match a with
    | ⟨0, _⟩ =>
      show win1_3.index t (0 : Fin 2) * 64 + 1 * (u 0).val = (u 0).val
      omega
    | ⟨1, _⟩ =>
      show win1_3.index t (1 : Fin 2) * 64 + 1 * (u 1).val = (u 1).val
      omega
  · funext u
    show V c main_v33 (((cfg1.win 4).blk t).view.emb u) = V c main_v33 u
    refine congrArg (V c main_v33) ?_
    funext a; apply Fin.ext
    match a with
    | ⟨0, _⟩ =>
      show win1_4.index t (0 : Fin 2) * 1 + 1 * (u 0).val = (u 0).val
      omega
    | ⟨1, _⟩ =>
      show win1_4.index t (1 : Fin 2) * 64 + 1 * (u 1).val = (u 1).val
      omega
  · intro k
    show V c main_arg4 (((cfg1.win 5).blk t).view.emb (ix2 k (⟨(j 1).val, (j 1).isLt⟩ : Fin 32))) = _
    refine congrArg (V c main_arg4) ?_
    funext a; apply Fin.ext
    match a with
    | ⟨0, _⟩ =>
      show win1_5.index t (0 : Fin 2) * 64 + 1 * k.val = k.val
      omega
    | ⟨1, _⟩ =>
      show win1_5.index t (1 : Fin 2) * 32 + 1 * (j 1).val = win1_6.index t (1 : Fin 2) * 32 + 1 * (j 1).val
      omega

/-- An entry of the output array is in point `t`'s block iff each coordinate is in the block's range. -/
theorem mem_blk (t : Fin cfg1.N) (i : S100000x32.Idx) :
    i ∈ ((cfg1.win 6).blk t).view.set ↔ ∀ a : Fin 2, win1_6.index t a * S5000x32.size a ≤ (i a).val
      ∧ (i a).val < win1_6.index t a * S5000x32.size a + S5000x32.size a := by
  show i ∈ ((View.whole main_v34).slice (win1_6.rect t)).set ↔ _
  rw [View.set_slice_whole, Rect.mem_set_unit]
  exact Iff.rfl

/-- Every entry of the output array is in the block of the point its row falls in. -/
theorem cover (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : grid1.N = 20 := N_1
  let t : Fin cfg1.N := ⟨(i 0).val / 5000, by show (i 0).val / 5000 < grid1.N; rw [hN]; omega⟩
  obtain ⟨e0, e1, e2, e3, e4, e5, e6, e7, e8, e9, e10, e11, e12, e13⟩ := idx_facts t
  have e12' : win1_6.index t (0 : Fin 2) = (i 0).val / 5000 := e12
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    omega
  | ⟨1, _⟩ =>
    show win1_6.index t (1 : Fin 2) * 32 ≤ (i 1).val ∧ (i 1).val < win1_6.index t (1 : Fin 2) * 32 + 32
    omega

/-- The output array after the region. -/
theorem final (c : Dev nD) :
    (dat1 V c).arrAt 6 cfg1.N
      = denseRows (V c main_v30) (V c main_v31) (V c main_v32) (V c main_arg2) (V c main_v33) (V c main_arg4) :=
  (dat1 V c).arrAt_eq_of_cover 6 _ (fun t _ => flushed_eq V c t) cover

end Cert.KernelIdeal.Dense

end
-- ==== Proof.Region2.lean ====
/-
  The last region: the aggregated projections scaled row by row, the bias added, the result rectified.

  The region walks the 100000 rows in 20 blocks of 5000. At each block it multiplies the block of the aggregate, entry by
  entry, by the block of the destination scale broadcast along the 32 features, adds the bias row broadcast along the rows,
  and takes the maximum with zero. So the output array ends, entry `(n, q)`, at `max (A (n, q) · C (n, 0) + B (0, q)) 0`.
-/
import proofs.«121131_j79285096284697_2_alg».proof.Proof.Gen.KernelIdeal.Frame
import proofs.«121131_j79285096284697_2_alg».proof.Proof.LibLayout
import Idealize.ShloMosaic.Lib.ValueIdx
import Idealize.ShloMosaic.Lib.ValueLayout
import Idealize.ShloMosaic.Lib.Pipeline.Value

set_option maxRecDepth 16384

noncomputable section

namespace Cert.KernelIdeal.Finish

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem hz : (![0, 0] : Fin 2 → Nat) = fun _ => 0 := funext fun a => by fin_cases a <;> rfl

/-- Every row of `A` times the row's entry of the column `C`, plus the row `B`, rectified. -/
def finishRows (A : S100000x32.Idx → EReal) (C : S100000x1.Idx → EReal) (B : S1x32.Idx → EReal) : S100000x32.Idx → EReal :=
  fun i => max (A i * C (ix2 (⟨(i 0).val, (i 0).isLt⟩ : Fin 100000) (0 : Fin 1))
    + B (ix2 (0 : Fin 1) (⟨(i 1).val, (i 1).isLt⟩ : Fin 32))) (Ideal.ofBits .f32 0x00000000#32)

/-- The body's value at an entry of a block. -/
theorem pay_at (x0 : Vec Ideal S5000x32 .f32) (x1 : Vec Ideal S5000x1 .f32) (x2 : Vec Ideal S1x32 .f32) (p : Fin 5000) (q : Fin 32) :
    k2_pay1 x0 x1 x2 (ix2 p q)
      = max (x0 (ix2 p q) * x1 (ix2 p (0 : Fin 1)) + x2 (ix2 (0 : Fin 1) q)) (Ideal.ofBits .f32 0x00000000#32) := by
  unfold k2_pay1
  rw [maximumf_apply, addf_apply, mulf_apply, shapeCast_self, shapeCast_self, shapeCast_self,
    Cert.Attn.Layout.broadcastTo_a1_ab_apply, broadcastTo_1b_ab_apply, broadcast_apply]
  rfl

/-- The body's value at an entry is the finished array's entry, once the three blocks are read where the entry sits. -/
theorem point_eq (A : S100000x32.Idx → EReal) (C : S100000x1.Idx → EReal) (B : S1x32.Idx → EReal)
    (x0 : Vec Ideal S5000x32 .f32) (x1 : Vec Ideal S5000x1 .f32) (x2 : Vec Ideal S1x32 .f32)
    (y : S5000x32.Idx) (i : S100000x32.Idx)
    (h0 : x0 y = A i)
    (h1 : ∀ u : S5000x1.Idx, (u 0).val = (y 0).val →
      x1 u = C (ix2 (⟨(i 0).val, (i 0).isLt⟩ : Fin 100000) (0 : Fin 1)))
    (h2 : ∀ u : S1x32.Idx, (u 1).val = (y 1).val →
      x2 u = B (ix2 (0 : Fin 1) (⟨(i 1).val, (i 1).isLt⟩ : Fin 32))) :
    k2_pay1 x0 x1 x2 y = finishRows A C B i := by
  obtain ⟨p, q, rfl⟩ : ∃ (p : Fin 5000) (q : Fin 32), y = ix2 p q := ⟨y 0, y 1, eq_ix2 y⟩
  rw [pay_at, h0, h1 (ix2 p (0 : Fin 1)) rfl, h2 (ix2 (0 : Fin 1) q) rfl]
  rfl

/-- Where the four windows' blocks sit at point `t`: the row windows at block row `t`, the bias at its one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is block `t` of the finished array. -/
theorem flushed_eq (c : Dev nD) (t : Fin cfg2.N) :
    (dat2 V c).flushed 3 t
      = ((cfg2.win 3).blk t).view.read (Elt Ideal) (finishRows (V c main_v44) (V c main_v45) (V c main_v46)) := by
  show (cfg2.win 3).cut (grid2.coords t) ((dat2 V c).after 3 t) = _
  rw [after2_3]
  unfold out2_3
  rw [View.canon_unit_zero hz]
  simp only [View.ld_unit_zero (S := S5000x32) hz, View.ld_unit_zero (S := S5000x1) hz, View.ld_unit_zero (S := S1x32) hz]
  obtain ⟨e0, e1, e2, e3, e4, e5, e6, e7⟩ := idx_facts t
  funext j
  refine point_eq (V c main_v44) (V c main_v45) (V c main_v46) (iblk2 V c 0 t) (iblk2 V c 1 t) (iblk2 V c 2 t) j
    (((cfg2.win 3).blk t).view.emb j) ?_ ?_ ?_
  · show V c main_v44 (((cfg2.win 0).blk t).view.emb j) = V c main_v44 (((cfg2.win 3).blk t).view.emb j)
    refine congrArg (V c main_v44) ?_
    funext a; apply Fin.ext
    match a with
    | ⟨0, _⟩ =>
      show win2_0.index t (0 : Fin 2) * 5000 + 1 * (j 0).val = win2_3.index t (0 : Fin 2) * 5000 + 1 * (j 0).val
      omega
    | ⟨1, _⟩ =>
      show win2_0.index t (1 : Fin 2) * 32 + 1 * (j 1).val = win2_3.index t (1 : Fin 2) * 32 + 1 * (j 1).val
      omega
  · intro u hu
    show V c main_v45 (((cfg2.win 1).blk t).view.emb u) = _
    refine congrArg (V c main_v45) ?_
    funext a; apply Fin.ext
    match a with
    | ⟨0, _⟩ =>
      show win2_1.index t (0 : Fin 2) * 5000 + 1 * (u 0).val = win2_3.index t (0 : Fin 2) * 5000 + 1 * (j 0).val
      omega
    | ⟨1, _⟩ =>
      show win2_1.index t (1 : Fin 2) * 1 + 1 * (u 1).val = 0
      have hu1 : (u 1).val < 1 := (u 1).isLt
      omega
  · intro u hu
    show V c main_v46 (((cfg2.win 2).blk t).view.emb u) = _
    refine congrArg (V c main_v46) ?_
    funext a; apply Fin.ext
    match a with
    | ⟨0, _⟩ =>
      show win2_2.index t (0 : Fin 2) * 1 + 1 * (u 0).val = 0
      have hu0 : (u 0).val < 1 := (u 0).isLt
      omega
    | ⟨1, _⟩ =>
      show win2_2.index t (1 : Fin 2) * 32 + 1 * (u 1).val = win2_3.index t (1 : Fin 2) * 32 + 1 * (j 1).val
      omega

/-- An entry of the output array is in point `t`'s block iff each coordinate is in the block's range. -/
theorem mem_blk (t : Fin cfg2.N) (i : S100000x32.Idx) :
    i ∈ ((cfg2.win 3).blk t).view.set ↔ ∀ a : Fin 2, win2_3.index t a * S5000x32.size a ≤ (i a).val
      ∧ (i a).val < win2_3.index t a * S5000x32.size a + S5000x32.size a := by
  show i ∈ ((View.whole main_v47).slice (win2_3.rect t)).set ↔ _
  rw [View.set_slice_whole, Rect.mem_set_unit]
  exact Iff.rfl

/-- Every entry of the output array is in the block of the point its row falls in. -/
theorem cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hN : grid2.N = 20 := N_2
  let t : Fin cfg2.N := ⟨(i 0).val / 5000, by show (i 0).val / 5000 < grid2.N; rw [hN]; omega⟩
  obtain ⟨e0, e1, e2, e3, e4, e5, e6, e7⟩ := idx_facts t
  have e6' : win2_3.index t (0 : Fin 2) = (i 0).val / 5000 := e6
  refine ⟨t, flush2_3 t, ?_⟩
  rw [mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 32 ≤ (i 1).val ∧ (i 1).val < win2_3.index t (1 : Fin 2) * 32 + 32
    omega

/-- The output array after the region. -/
theorem final (c : Dev nD) :
    (dat2 V c).arrAt 3 cfg2.N = finishRows (V c main_v44) (V c main_v45) (V c main_v46) :=
  (dat2 V c).arrAt_eq_of_cover 3 (finishRows (V c main_v44) (V c main_v45) (V c main_v46)) (fun t _ => flushed_eq V c t) cover

end Cert.KernelIdeal.Finish

end
-- ==== Proof.ReferenceValue.lean ====
/-
  The reference's result array, entry by entry.

  The reference computes the positions and the scales, scales the features at the source, aggregates them over the edges,
  scales at the destination, applies the first dense layer and the rectifier; then it scales the hidden rows at the source,
  aggregates THEM over the edges, scales at the destination, and only then projects with the second weight matrix, adds the
  bias and rectifies. Read at an entry, the result is the arrangement "aggregate, then project" of module Spec.
-/
import proofs.«121131_j79285096284697_2_alg».proof.Proof.Gen.ReferenceIdeal.Read
import proofs.«121131_j79285096284697_2_alg».proof.Proof.Spec
import Idealize.ShloMosaic.Lib.ValueIdx

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.GraphConv

variable (x0 : S100000x64.Idx → EReal) (x1 : S2x1000000.Idx → BitVec 32) (x2 : S64x64.Idx → EReal)
  (x3 : S64.Idx → EReal) (x4 : S64x32.Idx → EReal) (x5 : S32.Idx → EReal)

/-- The source scale of a node: the reference's own term for it, read at the node. -/
abbrev nsOf (x1 : S2x1000000.Idx → BitVec 32) : Fin 100000 → EReal := fun n => val_main_v14 (F := Ideal) x1 (ix1 n)
/-- The destination scale of a node. -/
abbrev ndOf (x1 : S2x1000000.Idx → BitVec 32) : Fin 100000 → EReal := fun n => val_main_v18 (F := Ideal) x1 (ix1 n)

/-- The features scaled at the source. -/
theorem v21_at (n : Fin 100000) (k : Fin 64) :
    val_main_v21 (F := Ideal) x0 x1 (ix2 n k) = scaledFeature (nsOf x1) x0 n k := by
  rw [val_main_v21_apply, val_main_v20_apply, val_main_v19_apply]
  have e : idx_main_v19 (idx_main_v20 (ix2 n k)) = ix1 n := funext fun a => Fin.ext (by match a with | ⟨0, _⟩ => rfl)
  rw [e, Ideal.mulf_def]
  rfl

/-- The first aggregation. -/
theorem v31_at (n : Fin 100000) (k : Fin 64) :
    val_main_v31 (F := Ideal) x0 x1 (ix2 n k)
      = aggregate (val_main_v1 (F := Ideal) x1) (val_main_v3 (F := Ideal) x1) (scaledFeature (nsOf x1) x0) n k := by
  unfold val_main_v31 val_main_v30 val_main_v29 val_main_v28 val_main_v27 val_main_v26 val_main_v25 val_main_v24 val_main_v23
    val_main_v22 val_main_c val_main_c_6 val_main_cst_7
  refine (aggregate_read (b := 64) scatter_S100000x64_S1000000x1_S1000000x64_1_0_0_1.wf
    gather_S100000x64_S1000000x1_S1000000x64_1_0_n_n_0_1_164.wf bcast_S_S100000x64 bcast_S_S1000000
    bcast_S1000000_S1000000x1_0 (val_main_v1 (F := Ideal) x1) (val_main_v3 (F := Ideal) x1) (val_main_v21 (F := Ideal) x0 x1) n k).trans ?_
  exact congrArg (fun f => aggregate _ _ f n k) (funext fun n' => funext fun k' => v21_at x0 x1 n' k')

/-- The first layer's dense input: the aggregate scaled at the destination. -/
theorem v34_at (n : Fin 100000) (k : Fin 64) :
    val_main_v34 (F := Ideal) x0 x1 (ix2 n k)
      = aggregate (val_main_v1 (F := Ideal) x1) (val_main_v3 (F := Ideal) x1) (scaledFeature (nsOf x1) x0) n k * ndOf x1 n := by
  rw [val_main_v34_apply, val_main_v33_apply, val_main_v32_apply, v31_at]
  have e : idx_main_v32 (idx_main_v33 (ix2 n k)) = ix1 n := funext fun a => Fin.ext (by match a with | ⟨0, _⟩ => rfl)
  rw [e, Ideal.mulf_def]

/-- The scaled hidden row. -/
theorem v42_at (n : Fin 100000) (k : Fin 64) :
    val_main_v42 (F := Ideal) x0 x1 x2 x3 (ix2 n k)
      = hiddenRow (val_main_v1 (F := Ideal) x1) (val_main_v3 (F := Ideal) x1) (nsOf x1) (ndOf x1) x0 x2 (fun k => x3 (ix1 k)) n k := by
  rw [val_main_v42_apply, val_main_v41_apply, val_main_v40_apply, val_main_v39_apply, val_main_v38_apply, val_main_v37_apply,
    val_main_v36_apply, val_main_v35_apply]
  have e1 : idx_main_v40 (idx_main_v41 (ix2 n k)) = ix1 n := funext fun a => Fin.ext (by match a with | ⟨0, _⟩ => rfl)
  have e2 : idx_main_v36 (idx_main_v37 (ix2 n k)) = ix1 k := funext fun a => Fin.ext (by match a with | ⟨0, _⟩ => rfl)
  rw [e1, e2]
  unfold hiddenRow hiddenScaled
  refine congrArg (fun s => max (s + x3 (ix1 k)) (Ideal.ofBits .f32 0x00000000#32) * val_main_v14 (F := Ideal) x1 (ix1 n)) ?_
  refine Finset.sum_congr rfl fun k' _ => ?_
  have el : lidx_main_v35 (ix2 n k) k' = ix2 n k' := funext fun a => Fin.ext (by match a with | ⟨0, _⟩ => rfl | ⟨1, _⟩ => rfl)
  have er : ridx_main_v35 (ix2 n k) k' = ix2 k' k := funext fun a => Fin.ext (by match a with | ⟨0, _⟩ => rfl | ⟨1, _⟩ => rfl)
  rw [el, er, v34_at]

/-- The second aggregation: of the scaled hidden rows. -/
theorem v52_at (i : Fin 100000) (k : Fin 64) :
    val_main_v52 (F := Ideal) x0 x1 x2 x3 (ix2 i k)
      = aggregate (val_main_v1 (F := Ideal) x1) (val_main_v3 (F := Ideal) x1)
          (hiddenRow (val_main_v1 (F := Ideal) x1) (val_main_v3 (F := Ideal) x1) (nsOf x1) (ndOf x1) x0 x2 (fun k => x3 (ix1 k))) i k := by
  unfold val_main_v52 val_main_v51 val_main_v50 val_main_v49 val_main_v48 val_main_v47 val_main_v46 val_main_v45 val_main_v44
    val_main_v43 val_main_c_8 val_main_c_9 val_main_cst_10
  refine (aggregate_read (b := 64) scatter_S100000x64_S1000000x1_S1000000x64_1_0_0_1.wf
    gather_S100000x64_S1000000x1_S1000000x64_1_0_n_n_0_1_164.wf bcast_S_S100000x64 bcast_S_S1000000
    bcast_S1000000_S1000000x1_0 (val_main_v1 (F := Ideal) x1) (val_main_v3 (F := Ideal) x1)
    (val_main_v42 (F := Ideal) x0 x1 x2 x3) i k).trans ?_
  exact congrArg (fun f => aggregate _ _ f i k) (funext fun n' => funext fun k' => v42_at x0 x1 x2 x3 n' k')

/-- THE RESULT at `(i, q)`: aggregate, scale, project, add the bias, rectify. -/
theorem result_at (i : Fin 100000) (q : Fin 32) :
    val_main_v60 (F := Ideal) x0 x1 x2 x3 x4 x5 (ix2 i q)
      = aggregateThenProject (val_main_v1 (F := Ideal) x1) (val_main_v3 (F := Ideal) x1) (nsOf x1) (ndOf x1) x0 x2
          (fun k => x3 (ix1 k)) x4 (fun q => x5 (ix1 q)) i q := by
  rw [val_main_v60_apply, val_main_v59_apply, val_main_v58_apply, val_main_v57_apply, val_main_v56_apply]
  have e2 : idx_main_v57 (idx_main_v58 (ix2 i q)) = ix1 q := funext fun a => Fin.ext (by match a with | ⟨0, _⟩ => rfl)
  rw [e2]
  unfold aggregateThenProject
  refine congrArg (fun s => max (s + x5 (ix1 q)) (Ideal.ofBits .f32 0x00000000#32)) ?_
  refine Finset.sum_congr rfl fun k _ => ?_
  have el : lidx_main_v56 (ix2 i q) k = ix2 i k := funext fun a => Fin.ext (by match a with | ⟨0, _⟩ => rfl | ⟨1, _⟩ => rfl)
  have er : ridx_main_v56 (ix2 i q) k = ix2 k q := funext fun a => Fin.ext (by match a with | ⟨0, _⟩ => rfl | ⟨1, _⟩ => rfl)
  rw [el, er, val_main_v55_apply, val_main_v54_apply, val_main_v53_apply, v52_at]
  have e : idx_main_v53 (idx_main_v54 (ix2 i k)) = ix1 i := funext fun a => Fin.ext (by match a with | ⟨0, _⟩ => rfl)
  rw [e]
  rfl

end Cert.ReferenceIdeal.RefValue

end
-- ==== Proof.KernelValue.lean ====
/-
  The idealized kernel's result array, entry by entry.

  The program's buffers are followed from the launch memory through its three stretches of host operations and its three
  regions. The first stretch computes, from the edge list alone, the source and destination positions and the two
  per-node scales; nothing later writes them. The first region scales the features at the source; the second stretch
  aggregates them over the edges; the second region applies the first dense layer and projects with the second weight
  matrix; the third stretch aggregates the projections; the last region scales at the destination, adds the bias and
  rectifies. Read at an entry, the result is the arrangement "project, then aggregate" of module Spec.

  The positions and scales are named by the terms the reference's host program computes them with: the two programs
  compute them with the same operations in the same order.
-/
import proofs.«121131_j79285096284697_2_alg».proof.Proof.Gen.KernelIdeal.Frame
import proofs.«121131_j79285096284697_2_alg».proof.Proof.Gen.ReferenceIdeal.Read
import proofs.«121131_j79285096284697_2_alg».proof.Proof.Region0
import proofs.«121131_j79285096284697_2_alg».proof.Proof.Region1
import proofs.«121131_j79285096284697_2_alg».proof.Proof.Region2
import proofs.«121131_j79285096284697_2_alg».proof.Proof.Spec
import Idealize.ShloMosaic.Lib.StableHlo.Run
import Idealize.ShloMosaic.Lib.ValueLayout
import proofs.«121131_j79285096284697_2_alg».proof.Proof.ReferenceValue
import proofs.«121131_j79285096284697_2_alg».proof.Proof.LibLayout

set_option maxRecDepth 16384

noncomputable section

namespace Cert.KernelIdeal.Whole

open Cert.KernelIdeal Cert.KernelIdeal.Gen
open Idealize.ShloMosaic Idealize.ShloMosaic.TcCoe Idealize.ShloMosaic.ValueIdx Idealize.ShloMosaic.StableHlo Idealize.SL.Sem
open Cert.GraphConv

variable (m : (ℓ : Loc nD τ sig) → Buf (Elt Ideal) ℓ) (ρ : Dev nD → PrngReg) (c : Dev nD)

/-- A line of host operations none of which writes the reference at hand. -/
macro "none_writes" ops:ident : tactic => `(tactic| (
  refine List.forall_iff_forall_mem.mp ?_
  simp only [$ops:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The regions' whole-array functions at coordinates -/

theorem scaleRows_at (X : S100000x64.Idx → EReal) (C : S100000x1.Idx → EReal) (n : Fin 100000) (k : Fin 64) :
    Cert.KernelIdeal.Scale.scaleRows X C (ix2 n k) = X (ix2 n k) * C (ix2 n (0 : Fin 1)) := rfl

theorem finishRows_at (A : S100000x32.Idx → EReal) (C : S100000x1.Idx → EReal) (B : S1x32.Idx → EReal) (i : Fin 100000) (q : Fin 32) :
    Cert.KernelIdeal.Finish.finishRows A C B (ix2 i q)
      = max (A (ix2 i q) * C (ix2 i (0 : Fin 1)) + B (ix2 (0 : Fin 1) q)) (Ideal.ofBits .f32 0x00000000#32) := rfl

/-! ## What the first stretch leaves is there at every later boundary -/

/-- A buffer that the first region does not own and the second stretch does not write holds, when the second region is
    entered, what the first stretch left. -/
theorem W3_keep (b : Ref sig .tc) (h0 : ∀ w, Pipeline.arrRef spec0 w ≠ b)
    (h1 : ∀ op ∈ (hostOps1 : List (HloOp τ sig (Elt Ideal))), Proc.devRef .tc b ∉ op.writes) :
    W3 m ρ c (Proc.devRef .tc b) = W1 m ρ c (Proc.devRef .tc b) :=
  (StableHlo.after_of_forall_not_mem (b := Proc.devRef .tc b) _ _ h1).trans (W2_of_ne m ρ c b h0)

/-- The same at the third region's entry. -/
theorem W5_keep (b : Ref sig .tc) (h0 : ∀ w, Pipeline.arrRef spec0 w ≠ b)
    (h1 : ∀ op ∈ (hostOps1 : List (HloOp τ sig (Elt Ideal))), Proc.devRef .tc b ∉ op.writes)
    (h2 : ∀ w, Pipeline.arrRef spec1 w ≠ b)
    (h3 : ∀ op ∈ (hostOps2 : List (HloOp τ sig (Elt Ideal))), Proc.devRef .tc b ∉ op.writes) :
    W5 m ρ c (Proc.devRef .tc b) = W1 m ρ c (Proc.devRef .tc b) :=
  (StableHlo.after_of_forall_not_mem (b := Proc.devRef .tc b) _ _ h3).trans
    ((W4_of_ne m ρ c b h2).trans (W3_keep m ρ c b h0 h1))

/-! ## The first stretch: positions, scales, and the arguments -/

/-- The edge list as launched. -/
abbrev edges : S2x1000000.Idx → BitVec 32 := m ((c : Thread nD τ).loc main_arg1)

theorem src_eq : (W1 m ρ c (Proc.devRef .tc main_v1) : S1000000.Idx → BitVec 32)
    = Cert.ReferenceIdeal.Read.val_main_v1 (F := Ideal) (edges m c) := by
  show StableHlo.after hostOps0 (W0 m ρ c) (Proc.devRef .tc main_v1) = _
  after_results
  rfl

theorem dst_eq : (W1 m ρ c (Proc.devRef .tc main_v3) : S1000000.Idx → BitVec 32)
    = Cert.ReferenceIdeal.Read.val_main_v3 (F := Ideal) (edges m c) := by
  show StableHlo.after hostOps0 (W0 m ρ c) (Proc.devRef .tc main_v3) = _
  after_results
  rfl

theorem ns_eq : (W1 m ρ c (Proc.devRef .tc main_v14) : S100000.Idx → EReal)
    = Cert.ReferenceIdeal.Read.val_main_v14 (F := Ideal) (edges m c) := by
  show StableHlo.after hostOps0 (W0 m ρ c) (Proc.devRef .tc main_v14) = _
  after_results
  rfl

theorem nd_eq : (W1 m ρ c (Proc.devRef .tc main_v18) : S100000.Idx → EReal)
    = Cert.ReferenceIdeal.Read.val_main_v18 (F := Ideal) (edges m c) := by
  show StableHlo.after hostOps0 (W0 m ρ c) (Proc.devRef .tc main_v18) = _
  after_results
  rfl

/-- A buffer the first stretch does not write holds the launch memory's contents. -/
theorem W1_launch (b : Ref sig .tc)
    (h : ∀ op ∈ (hostOps0 : List (HloOp τ sig (Elt Ideal))), Proc.devRef .tc b ∉ op.writes) :
    W1 m ρ c (Proc.devRef .tc b) = m ((c : Thread nD τ).loc b) :=
  StableHlo.after_of_forall_not_mem (b := Proc.devRef .tc b) _ _ h

local notation "srcP" => Cert.ReferenceIdeal.Read.val_main_v1 (F := Ideal) (edges m c)
local notation "dstP" => Cert.ReferenceIdeal.Read.val_main_v3 (F := Ideal) (edges m c)
local notation "nsP" => Cert.ReferenceIdeal.RefValue.nsOf (edges m c)
local notation "ndP" => Cert.ReferenceIdeal.RefValue.ndOf (edges m c)

/-! ## The first region: the features scaled at the source -/

theorem feat_eq : (V1 m ρ c main_arg0 : S100000x64.Idx → EReal) = m ((c : Thread nD τ).loc main_arg0) :=
  W1_launch m ρ c main_arg0 (by none_writes hostOps0)

theorem nsCol_at (n : Fin 100000) :
    (V1 m ρ c main_v19 : S100000x1.Idx → EReal) (ix2 n (0 : Fin 1)) = nsP n := by
  show StableHlo.after hostOps0 (W0 m ρ c) (Proc.devRef .tc main_v19) (ix2 n (0 : Fin 1)) = _
  after_results
  refine Eq.trans (b := shapeCast S100000x1 (Cert.ReferenceIdeal.Read.val_main_v14 (F := Ideal) (edges m c))
    shapeCasts_S100000_S100000x1 (ix2 n (0 : Fin 1))) ?_ ?_
  · rfl
  · exact Cert.Attn.Layout.shapeCast_a_a1_apply _ _ n 0

theorem scaled_at (n : Fin 100000) (k : Fin 64) :
    (W2 m ρ c (Proc.devRef .tc main_v20) : S100000x64.Idx → EReal) (ix2 n k)
      = scaledFeature nsP (m ((c : Thread nD τ).loc main_arg0)) n k := by
  have h : (W2 m ρ c (Proc.devRef .tc main_v20) : S100000x64.Idx → EReal)
      = Cert.KernelIdeal.Scale.scaleRows (V1 m ρ c main_arg0) (V1 m ρ c main_v19) :=
    (W2_arr m ρ c 2).trans (Cert.KernelIdeal.Scale.final (V1 m ρ) c)
  rw [h, scaleRows_at, feat_eq, nsCol_at]
  rfl

/-! ## The second stretch and the second region -/

theorem agg1_at (n : Fin 100000) (k : Fin 64) :
    (V3 m ρ c main_v30 : S100000x64.Idx → EReal) (ix2 n k)
      = aggregate srcP dstP (scaledFeature nsP (m ((c : Thread nD τ).loc main_arg0))) n k := by
  show StableHlo.after hostOps1 (W2 m ρ c) (Proc.devRef .tc main_v30) (ix2 n k) = _
  after_results
  rw [W2_of_ne m ρ c main_v3 (by decide), W2_of_ne m ρ c main_v1 (by decide), dst_eq m ρ c, src_eq m ρ c]
  refine (aggregate_read (b := 64) scatter_S100000x64_S1000000x1_S1000000x64_1_0_0_1.wf
    gather_S100000x64_S1000000x1_S1000000x64_1_0_n_n_0_1_164.wf bcast_S_S100000x64 bcast_S_S1000000 bcast_S1000000_S1000000x1_0
    srcP dstP (W2 m ρ c (Proc.devRef .tc main_v20) : S100000x64.Idx → EReal) n k).trans ?_
  exact congrArg (fun f => aggregate _ _ f n k) (funext fun n' => funext fun k' => scaled_at m ρ c n' k')

theorem ndCol1_at (n : Fin 100000) :
    (V3 m ρ c main_v31 : S100000x1.Idx → EReal) (ix2 n (0 : Fin 1)) = ndP n := by
  show StableHlo.after hostOps1 (W2 m ρ c) (Proc.devRef .tc main_v31) (ix2 n (0 : Fin 1)) = _
  after_results
  rw [W2_of_ne m ρ c main_v18 (by decide), nd_eq m ρ c]
  refine Eq.trans (b := shapeCast S100000x1 (Cert.ReferenceIdeal.Read.val_main_v18 (F := Ideal) (edges m c))
    shapeCasts_S100000_S100000x1 (ix2 n (0 : Fin 1))) ?_ ?_
  · rfl
  · exact Cert.Attn.Layout.shapeCast_a_a1_apply _ _ n 0

theorem nsCol1_at (n : Fin 100000) :
    (V3 m ρ c main_v32 : S100000x1.Idx → EReal) (ix2 n (0 : Fin 1)) = nsP n := by
  show StableHlo.after hostOps1 (W2 m ρ c) (Proc.devRef .tc main_v32) (ix2 n (0 : Fin 1)) = _
  after_results
  rw [W2_of_ne m ρ c main_v14 (by decide), ns_eq m ρ c]
  refine Eq.trans (b := shapeCast S100000x1 (Cert.ReferenceIdeal.Read.val_main_v14 (F := Ideal) (edges m c))
    shapeCasts_S100000_S100000x1 (ix2 n (0 : Fin 1))) ?_ ?_
  · rfl
  · exact Cert.Attn.Layout.shapeCast_a_a1_apply _ _ n 0

theorem bias1_at (k : Fin 64) :
    (V3 m ρ c main_v33 : S1x64.Idx → EReal) (ix2 (0 : Fin 1) k) = (m ((c : Thread nD τ).loc main_arg3) : S64.Idx → EReal) (ix1 k) := by
  show StableHlo.after hostOps1 (W2 m ρ c) (Proc.devRef .tc main_v33) (ix2 (0 : Fin 1) k) = _
  after_results
  rw [W2_of_ne m ρ c main_arg3 (by decide), W1_launch m ρ c main_arg3 (by none_writes hostOps0)]
  refine Eq.trans (b := shapeCast S1x64 (m ((c : Thread nD τ).loc main_arg3) : S64.Idx → EReal)
    shapeCasts_S64_S1x64 (ix2 (0 : Fin 1) k)) ?_ ?_
  · rfl
  · exact shapeCast_a_1a_apply _ _ 0 k

theorem w1_eq : (V3 m ρ c main_arg2 : S64x64.Idx → EReal) = m ((c : Thread nD τ).loc main_arg2) :=
  (W3_keep m ρ c main_arg2 (by decide) (by none_writes hostOps1)).trans (W1_launch m ρ c main_arg2 (by none_writes hostOps0))

theorem w2_eq : (V3 m ρ c main_arg4 : S64x32.Idx → EReal) = m ((c : Thread nD τ).loc main_arg4) :=
  (W3_keep m ρ c main_arg4 (by decide) (by none_writes hostOps1)).trans (W1_launch m ρ c main_arg4 (by none_writes hostOps0))

/-- The second region's output: every node's scaled hidden row projected with the second weight matrix. -/
theorem projected_at (n : Fin 100000) (q : Fin 32) :
    (W4 m ρ c (Proc.devRef .tc main_v34) : S100000x32.Idx → EReal) (ix2 n q)
      = ∑ k : Fin 64, hiddenRow srcP dstP nsP ndP (m ((c : Thread nD τ).loc main_arg0)) (m ((c : Thread nD τ).loc main_arg2))
          (fun k => (m ((c : Thread nD τ).loc main_arg3) : S64.Idx → EReal) (ix1 k)) n k
          * (m ((c : Thread nD τ).loc main_arg4) : S64x32.Idx → EReal) (ix2 k q) := by
  have h : (W4 m ρ c (Proc.devRef .tc main_v34) : S100000x32.Idx → EReal)
      = Cert.KernelIdeal.Dense.denseRows (V3 m ρ c main_v30) (V3 m ρ c main_v31) (V3 m ρ c main_v32) (V3 m ρ c main_arg2)
          (V3 m ρ c main_v33) (V3 m ρ c main_arg4) :=
    (W4_arr m ρ c 6).trans (Cert.KernelIdeal.Dense.final (V3 m ρ) c)
  rw [h]
  show ∑ k : Fin 64, hiddenScaled (fun k' => (V3 m ρ c main_v30 : S100000x64.Idx → EReal) (ix2 n k'))
      ((V3 m ρ c main_v31 : S100000x1.Idx → EReal) (ix2 n (0 : Fin 1))) ((V3 m ρ c main_v32 : S100000x1.Idx → EReal) (ix2 n (0 : Fin 1)))
      (V3 m ρ c main_arg2) (fun k => (V3 m ρ c main_v33 : S1x64.Idx → EReal) (ix2 (0 : Fin 1) k)) k
      * (V3 m ρ c main_arg4 : S64x32.Idx → EReal) (ix2 k q) = _
  simp only [agg1_at m ρ c, ndCol1_at m ρ c, nsCol1_at m ρ c, bias1_at m ρ c, w1_eq m ρ c, w2_eq m ρ c]
  rfl

/-! ## The third stretch and the last region -/

theorem agg2_at (i : Fin 100000) (q : Fin 32) :
    (V5 m ρ c main_v44 : S100000x32.Idx → EReal) (ix2 i q)
      = aggregate srcP dstP (fun n q' => (W4 m ρ c (Proc.devRef .tc main_v34) : S100000x32.Idx → EReal) (ix2 n q')) i q := by
  show StableHlo.after hostOps2 (W4 m ρ c) (Proc.devRef .tc main_v44) (ix2 i q) = _
  after_results
  rw [W4_of_ne m ρ c main_v3 (by decide), W4_of_ne m ρ c main_v1 (by decide),
    W3_keep m ρ c main_v3 (by decide) (by none_writes hostOps1), W3_keep m ρ c main_v1 (by decide) (by none_writes hostOps1),
    dst_eq m ρ c, src_eq m ρ c]
  exact aggregate_read (b := 32) scatter_S100000x32_S1000000x1_S1000000x32_1_0_0_1.wf
    gather_S100000x32_S1000000x1_S1000000x32_1_0_n_n_0_1_132.wf bcast_S_S100000x32 bcast_S_S1000000 bcast_S1000000_S1000000x1_0
    srcP dstP (W4 m ρ c (Proc.devRef .tc main_v34) : S100000x32.Idx → EReal) i q

theorem ndCol2_at (i : Fin 100000) :
    (V5 m ρ c main_v45 : S100000x1.Idx → EReal) (ix2 i (0 : Fin 1)) = ndP i := by
  show StableHlo.after hostOps2 (W4 m ρ c) (Proc.devRef .tc main_v45) (ix2 i (0 : Fin 1)) = _
  after_results
  rw [W4_of_ne m ρ c main_v18 (by decide), W3_keep m ρ c main_v18 (by decide) (by none_writes hostOps1), nd_eq m ρ c]
  refine Eq.trans (b := shapeCast S100000x1 (Cert.ReferenceIdeal.Read.val_main_v18 (F := Ideal) (edges m c))
    shapeCasts_S100000_S100000x1 (ix2 i (0 : Fin 1))) ?_ ?_
  · rfl
  · exact Cert.Attn.Layout.shapeCast_a_a1_apply _ _ i 0

theorem bias2_at (q : Fin 32) :
    (V5 m ρ c main_v46 : S1x32.Idx → EReal) (ix2 (0 : Fin 1) q) = (m ((c : Thread nD τ).loc main_arg5) : S32.Idx → EReal) (ix1 q) := by
  show StableHlo.after hostOps2 (W4 m ρ c) (Proc.devRef .tc main_v46) (ix2 (0 : Fin 1) q) = _
  after_results
  rw [W4_of_ne m ρ c main_arg5 (by decide), W3_keep m ρ c main_arg5 (by decide) (by none_writes hostOps1),
    W1_launch m ρ c main_arg5 (by none_writes hostOps0)]
  refine Eq.trans (b := shapeCast S1x32 (m ((c : Thread nD τ).loc main_arg5) : S32.Idx → EReal)
    shapeCasts_S32_S1x32 (ix2 (0 : Fin 1) q)) ?_ ?_
  · rfl
  · exact shapeCast_a_1a_apply _ _ 0 q

/-- THE RESULT at `(i, q)`: project, aggregate, scale, add the bias, rectify. -/
theorem result_at (i : Fin 100000) (q : Fin 32) :
    (W6 m ρ c (Proc.devRef .tc main_v47) : S100000x32.Idx → EReal) (ix2 i q)
      = projectThenAggregate srcP dstP nsP ndP (m ((c : Thread nD τ).loc main_arg0)) (m ((c : Thread nD τ).loc main_arg2))
          (fun k => (m ((c : Thread nD τ).loc main_arg3) : S64.Idx → EReal) (ix1 k)) (m ((c : Thread nD τ).loc main_arg4))
          (fun q => (m ((c : Thread nD τ).loc main_arg5) : S32.Idx → EReal) (ix1 q)) i q := by
  have h : (W6 m ρ c (Proc.devRef .tc main_v47) : S100000x32.Idx → EReal)
      = Cert.KernelIdeal.Finish.finishRows (V5 m ρ c main_v44) (V5 m ρ c main_v45) (V5 m ρ c main_v46) :=
    (W6_arr m ρ c 3).trans (Cert.KernelIdeal.Finish.final (V5 m ρ) c)
  rw [h, finishRows_at, agg2_at, ndCol2_at, bias2_at]
  have hp : (fun (n : Fin 100000) (q' : Fin 32) => (W4 m ρ c (Proc.devRef .tc main_v34) : S100000x32.Idx → EReal) (ix2 n q'))
      = fun n q' => ∑ k : Fin 64, hiddenRow srcP dstP nsP ndP (m ((c : Thread nD τ).loc main_arg0)) (m ((c : Thread nD τ).loc main_arg2))
          (fun k => (m ((c : Thread nD τ).loc main_arg3) : S64.Idx → EReal) (ix1 k)) n k
          * (m ((c : Thread nD τ).loc main_arg4) : S64x32.Idx → EReal) (ix2 k q') :=
    funext fun n => funext fun q' => projected_at m ρ c n q'
  rw [hp]
  rfl

end Cert.KernelIdeal.Whole

end
-- ==== Proof.Norm.lean ====
/-
  The degree normalisation is a nonnegative real, whatever the degree.

  A node's scale is `max(deg, 1)` raised to the power `-1/2`. On the extended reals: a real degree gives a real base at
  least one, whose real power is a nonnegative real; a degree of `-∞` gives the base one; a degree of `+∞` gives the base
  `+∞`, whose negative power is zero. So the scale is always a real number `r ≥ 0`.
-/
import Idealize.ShloMosaic.PureOps.Ideal
import Idealize.ShloMosaic.PureOps.Ideal.Laws

namespace Cert.GraphConv.Norm

open Idealize.ShloMosaic

/-- The pattern of the float `1.0` denotes the real one. -/
theorem ofBits_one : Ideal.ofBits .f32 0x3F800000#32 = ((1 : ℝ) : EReal) := by
  simp [Ideal.ofBits, Ideal.ieee]
  norm_cast
  norm_num

/-- The pattern of the float `-0.5` denotes the real minus one half. -/
theorem ofBits_neg_half : Ideal.ofBits .f32 0xBF000000#32 = ((-(1 / 2) : ℝ) : EReal) := by
  simp [Ideal.ofBits, Ideal.ieee]
  norm_cast
  norm_num

/-- `max(z, 1) ^ (-1/2)` is a nonnegative real for every extended real `z`. -/
theorem scale_real (z : EReal) :
    ∃ r : ℝ, 0 ≤ r ∧ Ideal.pow (max z (Ideal.ofBits .f32 0x3F800000#32)) (Ideal.ofBits .f32 0xBF000000#32) = (r : EReal) := by
  rw [ofBits_one, ofBits_neg_half]
  induction z using EReal.rec with
  | bot =>
    refine ⟨Real.rpow 1 (-(1 / 2)), Real.rpow_nonneg zero_le_one _, ?_⟩
    rw [max_eq_right bot_le]
    rfl
  | coe x =>
    refine ⟨Real.rpow (max x 1) (-(1 / 2)), Real.rpow_nonneg (le_max_of_le_right zero_le_one) _, ?_⟩
    rw [← Monotone.map_max EReal.coe_strictMono.monotone]
    rfl
  | top =>
    refine ⟨0, le_rfl, ?_⟩
    rw [max_eq_left le_top, Ideal.pow_top]
    have h1 : ¬ (0 : EReal) < ((-(1 / 2) : ℝ) : EReal) := by
      rw [not_lt]; exact_mod_cast (by norm_num : (-(1 / 2) : ℝ) ≤ 0)
    have h2 : ((-(1 / 2) : ℝ) : EReal) ≠ 0 := by
      exact_mod_cast (by norm_num : (-(1 / 2) : ℝ) ≠ 0)
    rw [if_neg h1, if_neg h2]
    rfl

end Cert.GraphConv.Norm
-- ==== Proof.Scales.lean ====
/-
  The two per-node scales are nonnegative real numbers.

  Each scale is `max(deg, 1)` raised to the power `-1/2`, `deg` the node's out-degree (source scale) or in-degree (destination
  scale) as the host program computes it. Whatever extended real the degree is, that power is a nonnegative real (module
  Norm); so the scales are nonnegative, and finite.
-/
import proofs.«121131_j79285096284697_2_alg».proof.Proof.ReferenceValue
import proofs.«121131_j79285096284697_2_alg».proof.Proof.Norm

noncomputable section

namespace Cert.ReferenceIdeal.RefValue

open Cert.ReferenceIdeal Cert.ReferenceIdeal.Read
open Idealize.ShloMosaic Idealize.ShloMosaic.ValueIdx

variable (x1 : S2x1000000.Idx → BitVec 32)

theorem ns_real (n : Fin 100000) : ∃ r : ℝ, 0 ≤ r ∧ nsOf x1 n = (r : EReal) := by
  show ∃ r : ℝ, 0 ≤ r ∧ val_main_v14 (F := Ideal) x1 (ix1 n) = (r : EReal)
  rw [val_main_v14_apply, val_main_v12_apply, val_main_v13_apply, val_main_v11_apply, val_main_cst_2_apply, val_main_cst_3_apply]
  exact Cert.GraphConv.Norm.scale_real (val_main_v7 (F := Ideal) x1 (ix1 n))

theorem nd_real (n : Fin 100000) : ∃ r : ℝ, 0 ≤ r ∧ ndOf x1 n = (r : EReal) := by
  show ∃ r : ℝ, 0 ≤ r ∧ val_main_v18 (F := Ideal) x1 (ix1 n) = (r : EReal)
  rw [val_main_v18_apply, val_main_v16_apply, val_main_v17_apply, val_main_v15_apply, val_main_cst_4_apply, val_main_cst_5_apply]
  exact Cert.GraphConv.Norm.scale_real (val_main_v10 (F := Ideal) x1 (ix1 n))

/-- The source scale is nonnegative. -/
theorem ns_nonneg (n : Fin 100000) : 0 ≤ nsOf x1 n := by
  obtain ⟨r, hr, e⟩ := ns_real x1 n
  rw [e]
  exact EReal.coe_nonneg.mpr hr

/-- The destination scale is nonnegative and finite. -/
theorem nd_nonneg_finite (n : Fin 100000) : 0 ≤ ndOf x1 n ∧ ndOf x1 n ≠ ⊤ := by
  obtain ⟨r, hr, e⟩ := nd_real x1 n
  rw [e]
  exact ⟨EReal.coe_nonneg.mpr hr, EReal.coe_ne_top r⟩

end Cert.ReferenceIdeal.RefValue

end
-- ==== Proof.lean ====
/-
  The certificate of a two-layer graph convolution: a three-region kernel program against its plain reference.

  Both programs compute, from the edge list, the source and destination positions and the per-node scales
  `max(deg, 1)^(-1/2)` with the same host operations. The first layer is the same on both sides: scale the features at
  the source, aggregate over the edges, scale at the destination, dense transform, rectify. They differ in the second
  layer: the reference aggregates the (source-scaled) hidden rows, scales at the destination and then multiplies by the
  second weight matrix; the kernel multiplies every node's hidden row by the second weight matrix first — half as wide a
  payload per edge — and aggregates the products, scaling at the destination afterwards. At exact arithmetic on the
  extended reals the two agree (module Spec): the scaled hidden rows are nonnegative, being rectified values times
  nonnegative scales, so a sum of them times a weight is the sum of the products, and the destination scale is a
  nonnegative real, so it moves across the sum over the hidden features. Neither fact needs the inputs to be finite.

  The three frames are the generated ones (the reference's is its generated run with the result dropped); the
  idealization rewrote nothing; the kernel's value is read off its regions' run (modules KernelRun, Region0–2,
  KernelValue), the reference's off its generated run (module ReferenceValue).
-/
import proofs.«121131_j79285096284697_2_alg».proof.Defs
import proofs.«121131_j79285096284697_2_alg».proof.Proof.Gen.Kernel
import proofs.«121131_j79285096284697_2_alg».proof.Proof.Gen.Kernel.Skeleton
import proofs.«121131_j79285096284697_2_alg».proof.Proof.Gen.Kernel.Launch
import proofs.«121131_j79285096284697_2_alg».proof.Proof.Gen.Kernel.Points
import proofs.«121131_j79285096284697_2_alg».proof.Proof.Gen.Kernel.Frame
import proofs.«121131_j79285096284697_2_alg».proof.Proof.Gen.KernelIdeal
import proofs.«121131_j79285096284697_2_alg».proof.Proof.Gen.KernelIdeal.Skeleton
import proofs.«121131_j79285096284697_2_alg».proof.Proof.Gen.KernelIdeal.Launch
import proofs.«121131_j79285096284697_2_alg».proof.Proof.Gen.KernelIdeal.Points
import proofs.«121131_j79285096284697_2_alg».proof.Proof.Gen.KernelIdeal.Frame
import proofs.«121131_j79285096284697_2_alg».proof.Proof.Gen.ReferenceIdeal
import proofs.«121131_j79285096284697_2_alg».proof.Proof.Gen.ReferenceIdeal.Run
import proofs.«121131_j79285096284697_2_alg».proof.Proof.Gen.ReferenceIdeal.Read
import proofs.«121131_j79285096284697_2_alg».proof.Proof.Gen.Pre_finite_inputs
import proofs.«121131_j79285096284697_2_alg».proof.Proof.KernelRun
import proofs.«121131_j79285096284697_2_alg».proof.Proof.KernelValue
import proofs.«121131_j79285096284697_2_alg».proof.Proof.ReferenceValue
import proofs.«121131_j79285096284697_2_alg».proof.Proof.Scales
import Idealize.ShloMosaic.Adequacy
import Idealize.ShloMosaic.Init

noncomputable section

namespace Cert.Proof

open Idealize.ShloMosaic Idealize.ShloMosaic.ValueIdx Idealize.SL.Sem

/-- The word-level kernel runs and leaves its arguments as launched. -/
theorem frame_kernel : Cert.frame_Kernel :=
  fun m ρ _ => Cert.Kernel.Gen.frame m ρ

/-- The idealized kernel runs and leaves its arguments as launched. -/
theorem frame_kernelIdeal : Cert.frame_KernelIdeal :=
  fun m ρ _ => Cert.KernelIdeal.Gen.frame m ρ

/-- The reference runs and leaves its arguments as launched: its run with the result dropped. -/
theorem frame_reference : Cert.frame_ReferenceIdeal :=
  fun m ρ _ => (θ_run Cert.ReferenceIdeal.defs _ _).mono (fun _ h c => (h c).2) (Cert.ReferenceIdeal.Value.run (F := Ideal) m ρ)

/-- The two idealized programs, from memories that agree on the arguments, end with equal result arrays: entry `(i, q)`
    of the kernel's is "project, then aggregate", of the reference's "aggregate, then project", and the two agree. -/
theorem algebraic : Cert.algebraic_KernelIdeal_ReferenceIdeal := by
  intro m ρ m' ρ' _ hagree
  refine ⟨fun c => Cert.KernelIdeal.Gen.W6 m ρ c (Proc.devRef .tc Cert.KernelIdeal.main_v47),
    Cert.KernelIdeal.Whole.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v60_eq, (hagree c).1, (hagree c).2.1, (hagree c).2.2.1, (hagree c).2.2.2.1,
    (hagree c).2.2.2.2.1, (hagree c).2.2.2.2.2]
  funext j
  obtain ⟨i, q, rfl⟩ : ∃ (i : Fin 100000) (q : Fin 32), j = ix2 i q := ⟨j 0, j 1, eq_ix2 j⟩
  refine (Cert.ReferenceIdeal.RefValue.result_at _ _ _ _ _ _ i q).trans ?_
  refine Eq.trans ?_ (Cert.KernelIdeal.Whole.result_at m ρ c i q).symm
  exact (Cert.GraphConv.project_aggregate_comm _ _ _ _ _ _ _ _ _
    (Cert.ReferenceIdeal.RefValue.ns_nonneg _) (Cert.ReferenceIdeal.RefValue.nd_nonneg_finite _) i q).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
